-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S2x1600000 : Shape := ⟨2, ![2, 1600000]⟩
abbrev S1600000x2 : Shape := ⟨2, ![1600000, 2]⟩
abbrev S24x128 : Shape := ⟨2, ![24, 128]⟩
abbrev S128 : Shape := ⟨1, ![128]⟩
abbrev S2x128 : Shape := ⟨2, ![2, 128]⟩
abbrev S128x128 : Shape := ⟨2, ![128, 128]⟩
abbrev S_ : Shape := ⟨0, ![]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S2x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x24 .f32) (main_arg1 : IVec S2x1600000 32) (main_arg2 : FVec F S1600000x2 .f32) (main_arg3 : FVec F S24x128 .f32) (main_arg4 : FVec F S128 .f32) (main_arg5 : FVec F S2x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S24x128 .f32 := Host.absf main_arg3
  let main_cst_2 : FVec F S_ .f32 := constant S_ .f32 0x7F800000#32
  let main_v10 : FVec F S24x128 .f32 := broadcastInDim S24x128 ![] bcast_S_S24x128 main_cst_2
  let main_v11 : IVec S24x128 1 := cmpf .olt main_v9 main_v10
  let main_c_3 : IVec S_ 1 := constantI S_ 1 1#1
  let main_v12 : IVec S_ 1 := (fun x v => Host.reduce IntOp.andi x v reducesTo_S24x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x24 : Shape := ⟨2, ![100000, 24]⟩
abbrev S2x1600000 : Shape := ⟨2, ![2, 1600000]⟩
abbrev S1600000x2 : Shape := ⟨2, ![1600000, 2]⟩
abbrev S24x128 : Shape := ⟨2, ![24, 128]⟩
abbrev S128 : Shape := ⟨1, ![128]⟩
abbrev S2x128 : Shape := ⟨2, ![2, 128]⟩
abbrev S128x128 : Shape := ⟨2, ![128, 128]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S1600000x128 : Shape := ⟨2, ![1600000, 128]⟩
abbrev S_ : Shape := ⟨0, ![]⟩
abbrev S1600000x1 : Shape := ⟨2, ![1600000, 1]⟩
abbrev S10000x24 : Shape := ⟨2, ![10000, 24]⟩
abbrev S10000x128 : Shape := ⟨2, ![10000, 128]⟩
abbrev S8000x2 : Shape := ⟨2, ![8000, 2]⟩
abbrev S8000x128 : Shape := ⟨2, ![8000, 128]⟩
abbrev S5000x128 : Shape := ⟨2, ![5000, 128]⟩

abbrev nBuf : Space → Nat
  | .hbm => 65
  | .vmem => 36
  | .smem => 0
  | _ => 0

abbrev bufTy : (tb : Table) → Fin (tcTables nBuf tb) → BufTy
  | .hbm, ⟨0, _⟩ => ⟨S100000x24, .f32⟩
  | .hbm, ⟨1, _⟩ => ⟨S2x1600000, .i32⟩
  | .hbm, ⟨2, _⟩ => ⟨S1600000x2, .f32⟩
  | .hbm, ⟨3, _⟩ => ⟨S24x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x128, .f32⟩
  | .hbm, ⟨16, _⟩ => ⟨S100000x128, .f32⟩
  | .hbm, ⟨17, _⟩ => ⟨S100000x128, .bf16⟩
  | .hbm, ⟨18, _⟩ => ⟨S1x128, .f32⟩
  | .hbm, ⟨19, _⟩ => ⟨S1600000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S1x128, .f32⟩
  | .hbm, ⟨41, _⟩ => ⟨S100000x128, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S100000x128, .f32⟩
  | .local _ .vmem, ⟨0, _⟩ => ⟨S10000x24, .f32⟩
  | .local _ .vmem, ⟨1, _⟩ => ⟨S10000x24, .f32⟩
  | .local _ .vmem, ⟨2, _⟩ => ⟨S24x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .bf16⟩
  | .local _ .vmem, ⟨7, _⟩ => ⟨S10000x128, .bf16⟩
  | .local _ .vmem, ⟨8, _⟩ => ⟨S8000x2, .f32⟩
  | .local _ .vmem, ⟨9, _⟩ => ⟨S8000x2, .f32⟩
  | .local _ .vmem, ⟨10, _⟩ => ⟨S2x128, .f32⟩
  | .local _ .vmem, ⟨11, _⟩ => ⟨S1x128, .f32⟩
  | .local _ .vmem, ⟨12, _⟩ => ⟨S8000x128, .bf16⟩
  | .local _ .vmem, ⟨13, _⟩ => ⟨S8000x128, .bf16⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .bf16⟩
  | .local _ .vmem, ⟨25, _⟩ => ⟨S5000x128, .bf16⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5_0 : Ref sig .tc := ⟨.hbm, 16, rfl⟩
abbrev main_call0_v5_1 : Ref sig .tc := ⟨.hbm, 17, rfl⟩
abbrev main_call0_v6 : Ref sig .tc := ⟨.hbm, 18, rfl⟩
abbrev main_call0_v7 : Ref sig .tc := ⟨.hbm, 19, rfl⟩
abbrev main_call0_c : Ref sig .tc := ⟨.hbm, 20, rfl⟩
abbrev main_call0_v8 : Ref sig .tc := ⟨.hbm, 21, rfl⟩
abbrev main_call0_v9 : Ref sig .tc := ⟨.hbm, 22, rfl⟩
abbrev main_call0_c_0 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_v18 : Ref sig .tc := ⟨.hbm, 34, rfl⟩
abbrev main_call0_cst : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24_0 : Ref sig .tc := ⟨.hbm, 41, rfl⟩
abbrev main_call0_v24_1 : Ref sig .tc := ⟨.hbm, 42, rfl⟩
abbrev main_call0_c_1 : Ref sig .tc := ⟨.hbm, 43, rfl⟩
abbrev main_call0_v25 : Ref sig .tc := ⟨.hbm, 44, rfl⟩
abbrev main_call0_v26 : Ref sig .tc := ⟨.hbm, 45, rfl⟩
abbrev main_call0_c_2 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_call1_cst : Ref sig .tc := ⟨.hbm, 55, rfl⟩
abbrev main_call0_call1_v0 : Ref sig .tc := ⟨.hbm, 56, rfl⟩
abbrev main_call0_v35 : Ref sig .tc := ⟨.hbm, 57, rfl⟩
abbrev main_call0_cst_3 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_v0 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  bcast_S_S1600000x128 : S_.BroadcastsInDim S1600000x128 (![] : Fin 0 → Fin S1600000x128.rank)
  bcast_S_S100000x128 : S_.BroadcastsInDim S100000x128 (![] : Fin 0 → Fin S100000x128.rank)
  inb_S10000x24_S10000x24_0_0 : ∀ a, (![0, 0] : Fin 2 → Nat) a + S10000x24.size a ≤ S10000x24.size a
  h_S10000x24 : 0 < S10000x24.numel
  inb_S24x128_S24x128_0_0 : ∀ a, (![0, 0] : Fin 2 → Nat) a + S24x128.size a ≤ S24x128.size a
  h_S24x128 : 0 < S24x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  inb_S8000x2_S8000x2_0_0 : ∀ a, (![0, 0] : Fin 2 → Nat) a + S8000x2.size a ≤ S8000x2.size a
  h_S8000x2 : 0 < S8000x2.numel
  inb_S2x128_S2x128_0_0 : ∀ a, (![0, 0] : Fin 2 → Nat) a + S2x128.size a ≤ S2x128.size a
  h_S2x128 : 0 < S2x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x24_S24x128_S10000x128_1_0_0_1_n_n_wf : DotDims.WF S10000x24 S24x128 S10000x128 [1] [0] [0] [1] [] []
  dot_S8000x2_S2x128_S8000x128_1_0_0_1_n_n_wf : DotDims.WF S8000x2 S2x128 S8000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x24.size a ≤ S100000x24.size a
  hwx0_0 : ∀ i : grid0.Coords, EltTy.bits .f32 = 32 ∨ (Rect.block (s := S100000x24) S10000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .f32 = 32 ∨ (Rect.block (s := S24x128) S24x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .bf16 = 32 ∨ (Rect.block (s := S100000x128) S10000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x2.size a ≤ S1600000x2.size a
  hwx1_0 : ∀ i : grid1.Coords, EltTy.bits .f32 = 32 ∨ (Rect.block (s := S1600000x2) S8000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S1600000x128.size a
  hwx1_3 : ∀ i : grid1.Coords, EltTy.bits .bf16 = 32 ∨ (Rect.block (s := S1600000x128) S8000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .bf16 = 32 ∨ (Rect.block (s := S100000x128) S5000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x24_S24x128_S10000x128_1_0_0_1_n_n : DotDims S10000x24 S24x128 S10000x128 where
  lhsContracting := [1]
  rhsContracting := [0]
  lhsNonContracting := [0]
  rhsNonContracting := [1]
  lhsBatch := []
  rhsBatch := []
  wf := dot_S10000x24_S24x128_S10000x128_1_0_0_1_n_n_wf
def dot_S8000x2_S2x128_S8000x128_1_0_0_1_n_n : DotDims S8000x2 S2x128 S8000x128 where
  lhsContracting := [1]
  rhsContracting := [0]
  lhsNonContracting := [0]
  rhsNonContracting := [1]
  lhsBatch := []
  rhsBatch := []
  wf := dot_S8000x2_S2x128_S8000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S8000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v5_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v21) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v23) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v24_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_call0_v24_1) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v24_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v40) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v0) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x24 : Shape := ⟨2, ![100000, 24]⟩
abbrev S2x1600000 : Shape := ⟨2, ![2, 1600000]⟩
abbrev S1600000x2 : Shape := ⟨2, ![1600000, 2]⟩
abbrev S24x128 : Shape := ⟨2, ![24, 128]⟩
abbrev S128 : Shape := ⟨1, ![128]⟩
abbrev S2x128 : Shape := ⟨2, ![2, 128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S1600000x128 : Shape := ⟨2, ![1600000, 128]⟩
abbrev S_ : Shape := ⟨0, ![]⟩
abbrev S1600000x1 : Shape := ⟨2, ![1600000, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x24, .f32⟩
  | .hbm, ⟨1, _⟩ => ⟨S2x1600000, .i32⟩
  | .hbm, ⟨2, _⟩ => ⟨S1600000x2, .f32⟩
  | .hbm, ⟨3, _⟩ => ⟨S24x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S1600000x128, .f32⟩
  | .hbm, ⟨20, _⟩ => ⟨S1x128, .f32⟩
  | .hbm, ⟨21, _⟩ => ⟨S1600000x128, .f32⟩
  | .hbm, ⟨22, _⟩ => ⟨S1600000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_c_2 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  dot_S100000x24_S24x128_S100000x128_1_0_0_1_n_n_wf : DotDims.WF S100000x24 S24x128 S100000x128 [1] [0] [0] [1] [] []
  dot_S1600000x2_S2x128_S1600000x128_1_0_0_1_n_n_wf : DotDims.WF S1600000x2 S2x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x24_S24x128_S100000x128_1_0_0_1_n_n : DotDims S100000x24 S24x128 S100000x128 where
  lhsContracting := [1]
  rhsContracting := [0]
  lhsNonContracting := [0]
  rhsNonContracting := [1]
  lhsBatch := []
  rhsBatch := []
  wf := dot_S100000x24_S24x128_S100000x128_1_0_0_1_n_n_wf
def dot_S1600000x2_S2x128_S1600000x128_1_0_0_1_n_n : DotDims S1600000x2 S2x128 S1600000x128 where
  lhsContracting := [1]
  rhsContracting := [0]
  lhsNonContracting := [0]
  rhsNonContracting := [1]
  lhsBatch := []
  rhsBatch := []
  wf := dot_S1600000x2_S2x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result array named.

  @main is four pipelined kernels among stretches of host operations.  From the launch memory the contents of
  every buffer at each boundary between two of these eight pieces are a fold: a host stretch applies its
  operations, a kernel replaces the arrays of its windows by what its write-backs leave and keeps every other
  buffer.  Every weakly fair execution terminates, nothing faulting, with each unscoped buffer at the last
  boundary's contents; read at the result buffer this is the fold's value there, and at an argument buffer it
  walks back to the launch memory because nothing writes an argument.
-/
import proofs.«178080_j70463233458547_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of @main terminates, nothing faulting; the result array ends at the last
    boundary's contents of its buffer and every argument array ends as launched. -/
theorem run_result : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Result

end
-- ==== Proof.Spec.lean ====
/-
  What the network computes, as one function of its eleven arguments.

  One layer of the network sends along every edge the source node's row plus the edge's own row, clipped below at
  zero, adds up at every node the messages arriving there, adds the node's own row, and passes the sum through a
  two-layer perceptron  relu (z · W₁ + b₁) · W₂ + b₂ .  The node rows the first layer starts from are x · W_in + b_in
  and the edge rows are edge_attr · W_e + b_e; the second layer starts from the first layer's output clipped at zero
  and uses the same edge rows and the same perceptron.

  The pieces are written with the host program's own operations, so that the host program's result is this
  function by unfolding the names, and the edge sum — whose terms depend on the integer edge list — is never opened:
  both programs apply the same edge sum to arrays that are shown equal.
-/
import proofs.«178080_j70463233458547_2_alg».proof.Proof.Gen.ReferenceIdeal.Run
import Idealize.ShloMosaic.PureOps.Ideal

noncomputable section

namespace Cert.ReferenceIdeal.Spec

open Cert.ReferenceIdeal Cert.ReferenceIdeal.Gen Idealize.ShloMosaic Idealize.ShloMosaic.TcCoe

/-- A vector of 128 numbers laid along each of the 100000 node rows. -/
def nodeBias (b : FVec Ideal S128 .f32) : FVec Ideal S100000x128 .f32 :=
  broadcastInDim S100000x128 ![0, 1] bcast_S1x128_S100000x128_0_1 (broadcastInDim S1x128 ![1] bcast_S128_S1x128_1 b)

/-- The node array of zeros. -/
def nodeZeros : FVec Ideal S100000x128 .f32 :=
  broadcastInDim S100000x128 ![] bcast_S_S100000x128 (constant (F := Ideal) S_ .f32 0x00000000#32)

/-- The node rows the first layer starts from: x · W_in + b_in. -/
def nodes0 (x : FVec Ideal S100000x24 .f32) (w : FVec Ideal S24x128 .f32)
    (b : FVec Ideal S128 .f32) : FVec Ideal S100000x128 .f32 :=
  addf (Host.dotGeneral (F := Ideal) dot_S100000x24_S24x128_S100000x128_1_0_0_1_n_n none x w) (nodeBias b)

/-- The edge rows: edge_attr · W_e + b_e. -/
def edges (a : FVec Ideal S1600000x2 .f32) (w : FVec Ideal S2x128 .f32)
    (b : FVec Ideal S128 .f32) : FVec Ideal S1600000x128 .f32 :=
  addf (Host.dotGeneral (F := Ideal) dot_S1600000x2_S2x128_S1600000x128_1_0_0_1_n_n none a w)
    (broadcastInDim S1600000x128 ![0, 1] bcast_S1x128_S1600000x128_0_1 (broadcastInDim S1x128 ![1] bcast_S128_S1x128_1 b))

/-- The source node of every edge (row 0 of the edge list). -/
def sources (ei : IVec S2x1600000 32) : IVec S1600000 32 :=
  shapeCast _ (extractStridedSlice S1x1600000 ![0, 0] ei slices_S2x1600000_S1x1600000_0_0) shapeCasts_S1x1600000_S1600000

/-- The node every edge arrives at (row 1 of the edge list). -/
def targets (ei : IVec S2x1600000 32) : IVec S1600000 32 :=
  shapeCast _ (extractStridedSlice S1x1600000 ![1, 0] ei slices_S2x1600000_S1x1600000_1_0) shapeCasts_S1x1600000_S1600000

/-- The row each edge's message is read from: its source, a negative number counted back from the last node. -/
def sourceRows (ei : IVec S2x1600000 32) : IVec S1600000x1 32 :=
  broadcastInDim S1600000x1 ![0] bcast_S1600000_S1600000x1_0
    (select (cmpi .slt (sources ei) (broadcastInDim S1600000 ![] bcast_S_S1600000 (constantI S_ 32 0#32)))
      (addi (sources ei) (broadcastInDim S1600000 ![] bcast_S_S1600000 (constantI S_ 32 100000#32))) (sources ei))

/-- The sum, at every node, of the messages relu (h (source) + e) of the edges arriving there. -/
def edgeSum (h : FVec Ideal S100000x128 .f32) (e : FVec Ideal S1600000x128 .f32)
    (ei : IVec S2x1600000 32) : FVec Ideal S100000x128 .f32 :=
  Host.scatterAdd (F := Ideal) scatter_S100000x128_S1600000x1_S1600000x128_1_0_0_1 nodeZeros
    (broadcastInDim S1600000x1 ![0] bcast_S1600000_S1600000x1_0 (targets ei))
    (maximumf (addf (Host.gather gather_S100000x128_S1600000x1_S1600000x128_1_0_n_n_0_1_1128 h (sourceRows ei)) e)
      (broadcastInDim S1600000x128 ![] bcast_S_S1600000x128 (constant (F := Ideal) S_ .f32 0x00000000#32)))

/-- The perceptron relu (z · W₁ + b₁) · W₂ + b₂ on every node row. -/
def perceptron (z : FVec Ideal S100000x128 .f32)
    (w1 : FVec Ideal S128x128 .f32) (b1 : FVec Ideal S128 .f32)
    (w2 : FVec Ideal S128x128 .f32) (b2 : FVec Ideal S128 .f32) :
    FVec Ideal S100000x128 .f32 :=
  addf (Host.dotGeneral (F := Ideal) dot_S100000x128_S128x128_S100000x128_1_0_0_1_n_n none
      (maximumf (addf (Host.dotGeneral (F := Ideal) dot_S100000x128_S128x128_S100000x128_1_0_0_1_n_n none z w1) (nodeBias b1)) nodeZeros) w2)
    (nodeBias b2)

/-- One layer: the perceptron of a node's row plus the messages arriving at it. -/
def layer (h : FVec Ideal S100000x128 .f32) (e : FVec Ideal S1600000x128 .f32)
    (ei : IVec S2x1600000 32)
    (w1 : FVec Ideal S128x128 .f32) (b1 : FVec Ideal S128 .f32)
    (w2 : FVec Ideal S128x128 .f32) (b2 : FVec Ideal S128 .f32) :
    FVec Ideal S100000x128 .f32 :=
  perceptron (addf h (edgeSum h e ei)) w1 b1 w2 b2

/-- The network: two layers over the same edge rows and the same perceptron, the first layer's output clipped at zero. -/
def network (x : FVec Ideal S100000x24 .f32) (ei : IVec S2x1600000 32)
    (a : FVec Ideal S1600000x2 .f32) (win : FVec Ideal S24x128 .f32)
    (bin : FVec Ideal S128 .f32) (we : FVec Ideal S2x128 .f32)
    (be : FVec Ideal S128 .f32)
    (w1 : FVec Ideal S128x128 .f32) (b1 : FVec Ideal S128 .f32)
    (w2 : FVec Ideal S128x128 .f32) (b2 : FVec Ideal S128 .f32) :
    FVec Ideal S100000x128 .f32 :=
  layer (maximumf (layer (nodes0 x win bin) (edges a we be) ei w1 b1 w2 b2) nodeZeros) (edges a we be) ei w1 b1 w2 b2

open Cert.ReferenceIdeal.Value in
set_option maxRecDepth 8192 in
/-- The host program's result is the network of its arguments. -/
theorem result_eq (m : (ℓ : Loc nD τ sig) → Buf (Elt Ideal) ℓ) (c : Dev nD) :
    res_main_v58 (F := Ideal) m c = network (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold res_main_v58 network layer perceptron edgeSum sourceRows sources targets edges nodes0 nodeZeros nodeBias
  rfl

end Cert.ReferenceIdeal.Spec

end
-- ==== Proof.Kept.lean ====
/-
  Which buffers a piece of @main leaves alone.

  @main is eight pieces in a row: a stretch of host operations, a kernel, and so on four times.  A host stretch
  changes only the buffers its operations write; a kernel changes only the arrays of its output windows (an array
  it only reads comes out as it went in).  Every value of the program is written once, so a buffer read several
  pieces after it was written is read unchanged; an argument is never written at all.
-/
import proofs.«178080_j70463233458547_2_alg».proof.Proof.Gen.KernelIdeal.Frame
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg) (c : Dev nD)

/-- x is as launched when the first kernel is entered. -/
theorem at1_arg0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- W_in is as launched when the first kernel is entered. -/
theorem at1_arg3 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- b_e is as launched when the first kernel has run. -/
theorem at2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- edge_attr is as launched when the second kernel is entered. -/
theorem at3_arg2 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- W_e is as launched when the second kernel is entered. -/
theorem at3_arg5 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- b₁ is as launched when the second kernel has run. -/
theorem at4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- b₂ is as launched when the second kernel has run. -/
theorem at4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The edges' sources are unchanged from the first kernel's entry to the second kernel's exit. -/
theorem at4_v1 : W4 m ρ c (Proc.devRef .tc main_call0_v1) = W1 m ρ c (Proc.devRef .tc main_call0_v1) :=
  calc W4 m ρ c (Proc.devRef .tc main_call0_v1)
    _ = W3 m ρ c (Proc.devRef .tc main_call0_v1) := W4_of_ne m ρ c main_call0_v1 (by decide)
    _ = W2 m ρ c (Proc.devRef .tc main_call0_v1) := StableHlo.after_of_forall_not_mem (b := Proc.devRef .tc main_call0_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_call0_v1) := W2_of_ne m ρ c main_call0_v1 (by decide)

/-- The edges' targets are unchanged from the first kernel's entry to the second kernel's exit. -/
theorem at4_v3 : W4 m ρ c (Proc.devRef .tc main_call0_v3) = W1 m ρ c (Proc.devRef .tc main_call0_v3) :=
  calc W4 m ρ c (Proc.devRef .tc main_call0_v3)
    _ = W3 m ρ c (Proc.devRef .tc main_call0_v3) := W4_of_ne m ρ c main_call0_v3 (by decide)
    _ = W2 m ρ c (Proc.devRef .tc main_call0_v3) := StableHlo.after_of_forall_not_mem (b := Proc.devRef .tc main_call0_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_call0_v3) := W2_of_ne m ρ c main_call0_v3 (by decide)

/-- The narrowed node rows are unchanged from the first kernel's exit to the second kernel's exit. -/
theorem at4_v5_1 : W4 m ρ c (Proc.devRef .tc main_call0_v5_1) = W2 m ρ c (Proc.devRef .tc main_call0_v5_1) :=
  calc W4 m ρ c (Proc.devRef .tc main_call0_v5_1)
    _ = W3 m ρ c (Proc.devRef .tc main_call0_v5_1) := W4_of_ne m ρ c main_call0_v5_1 (by decide)
    _ = W2 m ρ c (Proc.devRef .tc main_call0_v5_1) := StableHlo.after_of_forall_not_mem (b := Proc.devRef .tc main_call0_v5_1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The node rows are unchanged from the first kernel's exit to the third kernel's entry. -/
theorem at5_v5_0 : W5 m ρ c (Proc.devRef .tc main_call0_v5_0) = W2 m ρ c (Proc.devRef .tc main_call0_v5_0) :=
  calc W5 m ρ c (Proc.devRef .tc main_call0_v5_0)
    _ = W4 m ρ c (Proc.devRef .tc main_call0_v5_0) := StableHlo.after_of_forall_not_mem (b := Proc.devRef .tc main_call0_v5_0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_call0_v5_0) := W4_of_ne m ρ c main_call0_v5_0 (by decide)
    _ = W2 m ρ c (Proc.devRef .tc main_call0_v5_0) := StableHlo.after_of_forall_not_mem (b := Proc.devRef .tc main_call0_v5_0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- W₁ is as launched when the third kernel is entered. -/
theorem at5_arg7 : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- W₂ is as launched when the third kernel is entered. -/
theorem at5_arg9 : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- b₁ is as launched when the third kernel has run. -/
theorem at6_arg8 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- b₂ is as launched when the third kernel has run. -/
theorem at6_arg10 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The edges' sources are unchanged from the first kernel's entry to the third kernel's exit. -/
theorem at6_v1 : W6 m ρ c (Proc.devRef .tc main_call0_v1) = W1 m ρ c (Proc.devRef .tc main_call0_v1) :=
  calc W6 m ρ c (Proc.devRef .tc main_call0_v1)
    _ = W5 m ρ c (Proc.devRef .tc main_call0_v1) := W6_of_ne m ρ c main_call0_v1 (by decide)
    _ = W4 m ρ c (Proc.devRef .tc main_call0_v1) := StableHlo.after_of_forall_not_mem (b := Proc.devRef .tc main_call0_v1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_call0_v1) := W4_of_ne m ρ c main_call0_v1 (by decide)
    _ = W2 m ρ c (Proc.devRef .tc main_call0_v1) := StableHlo.after_of_forall_not_mem (b := Proc.devRef .tc main_call0_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_call0_v1) := W2_of_ne m ρ c main_call0_v1 (by decide)

/-- The edges' targets are unchanged from the first kernel's entry to the third kernel's exit. -/
theorem at6_v3 : W6 m ρ c (Proc.devRef .tc main_call0_v3) = W1 m ρ c (Proc.devRef .tc main_call0_v3) :=
  calc W6 m ρ c (Proc.devRef .tc main_call0_v3)
    _ = W5 m ρ c (Proc.devRef .tc main_call0_v3) := W6_of_ne m ρ c main_call0_v3 (by decide)
    _ = W4 m ρ c (Proc.devRef .tc main_call0_v3) := StableHlo.after_of_forall_not_mem (b := Proc.devRef .tc main_call0_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_call0_v3) := W4_of_ne m ρ c main_call0_v3 (by decide)
    _ = W2 m ρ c (Proc.devRef .tc main_call0_v3) := StableHlo.after_of_forall_not_mem (b := Proc.devRef .tc main_call0_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_call0_v3) := W2_of_ne m ρ c main_call0_v3 (by decide)

/-- The edge rows are unchanged from the second kernel's exit to the third kernel's exit. -/
theorem at6_v7 : W6 m ρ c (Proc.devRef .tc main_call0_v7) = W4 m ρ c (Proc.devRef .tc main_call0_v7) :=
  calc W6 m ρ c (Proc.devRef .tc main_call0_v7)
    _ = W5 m ρ c (Proc.devRef .tc main_call0_v7) := W6_of_ne m ρ c main_call0_v7 (by decide)
    _ = W4 m ρ c (Proc.devRef .tc main_call0_v7) := StableHlo.after_of_forall_not_mem (b := Proc.devRef .tc main_call0_v7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first layer's output is unchanged from the third kernel's exit to the fourth kernel's entry. -/
theorem at7_v24_0 : W7 m ρ c (Proc.devRef .tc main_call0_v24_0) = W6 m ρ c (Proc.devRef .tc main_call0_v24_0) :=
  calc W7 m ρ c (Proc.devRef .tc main_call0_v24_0)
    _ = W6 m ρ c (Proc.devRef .tc main_call0_v24_0) := StableHlo.after_of_forall_not_mem (b := Proc.devRef .tc main_call0_v24_0) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- W₁ is as launched when the fourth kernel is entered. -/
theorem at7_arg7 : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := (W6_arr m ρ c 2).trans (((dat2 (V5 m ρ) c).arrAt_in 2 rfl _).trans (A_eq2 (V5 m ρ) c 2))
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- W₂ is as launched when the fourth kernel is entered. -/
theorem at7_arg9 : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := (W6_arr m ρ c 4).trans (((dat2 (V5 m ρ) c).arrAt_in 4 rfl _).trans (A_eq2 (V5 m ρ) c 4))
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

end Cert.KernelIdeal.Kept

end
-- ==== Proof.LibTypedRef.lean ====
/-
  A typed reference carries the type of the tensor value its buffer holds, and moves contents between that type and
  the buffer's own type along the equation between the two.  Moving contents there and back, in either order, is
  the identity.  Nothing here knows a program.
-/
import Idealize.ShloMosaic.Lib.StableHlo

noncomputable section

namespace Cert.TypedRef

open Idealize.ShloMosaic Idealize.ShloMosaic.StableHlo

variable {sig : RefSig} {Val : EltTy → Type} {T : BufTy}

/-- Contents taken to the buffer's own type and back are the contents. -/
theorem ofBuf_toBuf (x : TRef sig T) (v : T.Contents Val) : x.ofBuf (x.toBuf v) = v := by
  obtain ⟨r, h, h1, h2⟩ := x
  subst h
  rfl

/-- Contents of the buffer taken to the value's type and back are the contents. -/
theorem toBuf_ofBuf (x : TRef sig T) (v : x.ref.ty.Contents Val) : x.toBuf (x.ofBuf v) = v := by
  obtain ⟨r, h, h1, h2⟩ := x
  subst h
  rfl

end Cert.TypedRef

end
-- ==== Proof.HostOps.lean ====
/-
  What the four stretches of host operations compute, from whatever contents they are entered with.

  The first stretch splits the edge list into its two rows and takes b_in to a 1 × 128 row; the second takes b_e to
  a row; the third and the fourth each form the edge sum of a layer — gather the source rows, add the edge rows,
  clip at zero, add up at the targets — and take b₁ and b₂ to rows.  The edge sum is spelt here as the kernel's
  program spells it, reading the narrowed copies of the node rows and the edge rows and widening them again; on the
  extended reals narrowing and widening are the identity, so it is the network's edge sum.
-/
import proofs.«178080_j70463233458547_2_alg».proof.Proof.Gen.KernelIdeal.Frame
import proofs.«178080_j70463233458547_2_alg».proof.Proof.Spec
import proofs.«178080_j70463233458547_2_alg».proof.Proof.LibTypedRef
import Idealize.ShloMosaic.Lib.StableHlo.Run
import Idealize.ShloMosaic.PureOps.Ideal

set_option maxRecDepth 16384

noncomputable section

namespace Cert.KernelIdeal.HostOps

open Cert.KernelIdeal Cert.KernelIdeal.Gen
open Idealize.ShloMosaic Idealize.ShloMosaic.TcCoe Idealize.SL.Sem Idealize.ShloMosaic.StableHlo
open Idealize.ShloMosaic.Pipeline (Dat)

/-- The edge sum as the kernel's program spells it: the node rows and the edge rows it reads are the narrowed copies,
    widened again before they are added. -/
def edgeSumK (hb : FVec Ideal S100000x128 .bf16) (eb : FVec Ideal S1600000x128 .bf16) (src dst : IVec S1600000 32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (maximumf (addf (extf (F := Ideal) .f32 (Host.gather gather_S100000x128_S1600000x1_S1600000x128_1_0_n_n_0_1_1128 hb
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))) bitsLt_bf16_f32)
        (extf (F := Ideal) .f32 eb bitsLt_bf16_f32))
      (broadcastInDim S1600000x128 ![] bcast_S_S1600000x128 (constant (F := Ideal) S_ .f32 0x00000000#32)))

/-- The kernel's spelling of the edge sum is the network's. -/
theorem edgeSumK_eq (h : FVec Ideal S100000x128 .f32) (e : FVec Ideal S1600000x128 .f32) (ei : IVec S2x1600000 32) :
    edgeSumK h e (Cert.ReferenceIdeal.Spec.sources ei) (Cert.ReferenceIdeal.Spec.targets ei) = Cert.ReferenceIdeal.Spec.edgeSum h e ei := by
  unfold edgeSumK Cert.ReferenceIdeal.Spec.edgeSum Cert.ReferenceIdeal.Spec.sourceRows Cert.ReferenceIdeal.Spec.nodeZeros
  rfl

theorem edgeSumK_congr {hb hb' : FVec Ideal S100000x128 .bf16} {eb eb' : FVec Ideal S1600000x128 .bf16} {s s' d d' : IVec S1600000 32}
    (h1 : hb = hb') (h2 : eb = eb') (h3 : s = s') (h4 : d = d') : edgeSumK hb eb s d = edgeSumK hb' eb' s' d' := by
  subst h1 h2 h3 h4; rfl

/-- Row 0 of the edge list, flattened. -/
theorem host0_v1 (Wv : Valuation τ sig (Elt Ideal)) :
    StableHlo.after hostOps0 Wv (Proc.devRef .tc main_call0_v1) = Cert.ReferenceIdeal.Spec.sources (Wv (Proc.devRef .tc main_arg1)) := by
  simp only [hostOps0]
  after_results
  rfl

/-- Row 1 of the edge list, flattened. -/
theorem host0_v3 (Wv : Valuation τ sig (Elt Ideal)) :
    StableHlo.after hostOps0 Wv (Proc.devRef .tc main_call0_v3) = Cert.ReferenceIdeal.Spec.targets (Wv (Proc.devRef .tc main_arg1)) := by
  simp only [hostOps0]
  after_results
  rfl

/-- b_in as a 1 × 128 row. -/
theorem host0_v4 (Wv : Valuation τ sig (Elt Ideal)) :
    StableHlo.after hostOps0 Wv (Proc.devRef .tc main_call0_v4) = shapeCast S1x128 (Wv (Proc.devRef .tc main_arg4)) shapeCasts_S128_S1x128 := by
  simp only [hostOps0]
  after_results
  rfl

/-- b_e as a 1 × 128 row. -/
theorem host1_v6 (Wv : Valuation τ sig (Elt Ideal)) :
    StableHlo.after hostOps1 Wv (Proc.devRef .tc main_call0_v6) = shapeCast S1x128 (Wv (Proc.devRef .tc main_arg6)) shapeCasts_S128_S1x128 := by
  simp only [hostOps1]
  after_results
  rfl

set_option maxHeartbeats 2000000 in
/-- The stretch's edge sum, from the narrowed node rows, the narrowed edge rows and the edge list's two rows as the
    stretch finds them. -/
theorem host2_v21 (Wv : Valuation τ sig (Elt Ideal)) :
    StableHlo.after hostOps2 Wv (Proc.devRef .tc main_call0_v21)
      = edgeSumK (Wv (Proc.devRef .tc main_call0_v5_1)) (Wv (Proc.devRef .tc main_call0_v7)) (Wv (Proc.devRef .tc main_call0_v1)) (Wv (Proc.devRef .tc main_call0_v3)) := by
  simp only [hostOps2]
  after_results_simp
  simp only [Cert.TypedRef.ofBuf_toBuf]
  rfl

set_option maxHeartbeats 2000000 in
/-- b₁ as a 1 × 128 row, for the first layer. -/
theorem host2_v22 (Wv : Valuation τ sig (Elt Ideal)) :
    StableHlo.after hostOps2 Wv (Proc.devRef .tc main_call0_v22) = shapeCast S1x128 (Wv (Proc.devRef .tc main_arg8)) shapeCasts_S128_S1x128 := by
  simp only [hostOps2]
  after_results_simp
  rfl

set_option maxHeartbeats 2000000 in
/-- b₂ as a 1 × 128 row, for the first layer. -/
theorem host2_v23 (Wv : Valuation τ sig (Elt Ideal)) :
    StableHlo.after hostOps2 Wv (Proc.devRef .tc main_call0_v23) = shapeCast S1x128 (Wv (Proc.devRef .tc main_arg10)) shapeCasts_S128_S1x128 := by
  simp only [hostOps2]
  after_results_simp
  rfl

set_option maxHeartbeats 2000000 in
/-- The stretch's edge sum, from the narrowed node rows, the narrowed edge rows and the edge list's two rows as the
    stretch finds them. -/
theorem host3_v38 (Wv : Valuation τ sig (Elt Ideal)) :
    StableHlo.after hostOps3 Wv (Proc.devRef .tc main_call0_v38)
      = edgeSumK (Wv (Proc.devRef .tc main_call0_v24_1)) (Wv (Proc.devRef .tc main_call0_v7)) (Wv (Proc.devRef .tc main_call0_v1)) (Wv (Proc.devRef .tc main_call0_v3)) := by
  simp only [hostOps3]
  after_results_simp
  simp only [Cert.TypedRef.ofBuf_toBuf]
  rfl

set_option maxHeartbeats 2000000 in
/-- b₁ as a 1 × 128 row, for the second layer. -/
theorem host3_v39 (Wv : Valuation τ sig (Elt Ideal)) :
    StableHlo.after hostOps3 Wv (Proc.devRef .tc main_call0_v39) = shapeCast S1x128 (Wv (Proc.devRef .tc main_arg8)) shapeCasts_S128_S1x128 := by
  simp only [hostOps3]
  after_results_simp
  rfl

set_option maxHeartbeats 2000000 in
/-- b₂ as a 1 × 128 row, for the second layer. -/
theorem host3_v40 (Wv : Valuation τ sig (Elt Ideal)) :
    StableHlo.after hostOps3 Wv (Proc.devRef .tc main_call0_v40) = shapeCast S1x128 (Wv (Proc.devRef .tc main_arg10)) shapeCasts_S128_S1x128 := by
  simp only [hostOps3]
  after_results_simp
  rfl

end Cert.KernelIdeal.HostOps

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibRowPerceptron.lean ====
/-
  A two-layer perceptron, read one row at a time on the extended reals.

  The output row p of   relu (x · W₁ + b₁) · W₂ + b₂   depends on row p of x only:

      out (p, u) = Σ_k  max (Σ_j x (p, j) · W₁ (j, k) + b₁ k) 0 · W₂ (k, u)  +  b₂ u .

  Two spellings of that array are read at an entry and found to be this expression: the one a kernel forms (two
  products into the zero accumulator with the operands' formats narrowed on the way, the biases kept as 1 × n rows
  and repeated down the rows, the zero of the maximum a scalar repeated), and the one a host program forms (two
  general dot products, each bias taken from a vector to a 1 × n row and then down the rows, the zero a scalar array
  repeated).  On the extended reals a change of format is the identity and both products are the plain finite sum,
  so the two spellings agree entry by entry, on arrays of any number of rows.

  Beside it: arrays of 64 columns set side by side along the columns, read at a column as the piece the column
  falls in; and the host's  1 / (1 + exp (−y))  read at an entry as the logistic function of the entry.

  Nothing here knows a program.
-/
import Idealize.ShloMosaic.Lib.ValueIdx
import Idealize.ShloMosaic.Lib.Pipeline.Value
import Idealize.ShloMosaic.Lib.IdealHost
import Idealize.ShloMosaic.PureOps.Ideal.Laws
import proofs.«178080_j70463233458547_2_alg».proof.Proof.LibRowsProduct

noncomputable section

open scoped BigOperators

namespace Cert.RowPerceptron

open Idealize.ShloMosaic Idealize.ShloMosaic.ValueIdx

/-! ## Arrays of 64 columns set side by side -/

section Pieces

variable {α : Type}

/-- Column j of two 64-column rows set side by side. -/
def pick2 (x0 x1 : Fin 64 → α) (j : Fin 128) : α :=
  if h : j.val < 64 then x0 ⟨j.val, h⟩ else x1 ⟨j.val - 64, by have := j.isLt; omega⟩

/-- Column j of three 64-column rows set side by side. -/
def pick3 (x0 x1 x2 : Fin 64 → α) (j : Fin 192) : α :=
  if h : j.val < 64 then x0 ⟨j.val, h⟩
  else if h' : j.val < 128 then x1 ⟨j.val - 64, by omega⟩
  else x2 ⟨j.val - 128, by have := j.isLt; omega⟩

/-- Two a × 64 arrays joined along the columns: entry (r, j) is column j of the two rows r set side by side. -/
theorem concat2_apply {a : ℕ} (x0 x1 : (⟨2, ![a, 64]⟩ : Shape).Idx → α)
    (h : Shape.Concatenates (([⟨⟨2, ![a, 64]⟩, x0⟩, ⟨⟨2, ![a, 64]⟩, x1⟩] :
      List ((s : Shape) × (s.Idx → α))).map (·.1)) ⟨2, ![a, 128]⟩ 1)
    (r : Fin a) (j : Fin 128) :
    concatenate ⟨2, ![a, 128]⟩ 1 [⟨⟨2, ![a, 64]⟩, x0⟩, ⟨⟨2, ![a, 64]⟩, x1⟩] h (ix2 r j)
      = pick2 (fun q => x0 (ix2 r q)) (fun q => x1 (ix2 r q)) j := by
  unfold pick2
  by_cases hj : j.val < 64
  · rw [dif_pos hj]
    refine concatenate_apply_piece 1 _ h (ix2 r j) 0 (by show 0 < 2; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    refine concatenate_apply_piece 1 _ h (ix2 r j) 1 (by show 1 < 2; omega) ⟨2, ![a, 64]⟩ x1 rfl rfl 64 rfl
      (ix2 r ⟨j.val - 64, by have := j.isLt; omega⟩) ?_ ?_
    · intro ax hax
      match ax with
      | ⟨0, _⟩ => rfl
      | ⟨1, _⟩ => exact absurd rfl hax
    · show 64 + (j.val - 64) = j.val
      omega

/-- Three a × 64 arrays joined along the columns: entry (r, j) is column j of the three rows r set side by side. -/
theorem concat3_apply {a : ℕ} (x0 x1 x2 : (⟨2, ![a, 64]⟩ : Shape).Idx → α)
    (h : Shape.Concatenates (([⟨⟨2, ![a, 64]⟩, x0⟩, ⟨⟨2, ![a, 64]⟩, x1⟩, ⟨⟨2, ![a, 64]⟩, x2⟩] :
      List ((s : Shape) × (s.Idx → α))).map (·.1)) ⟨2, ![a, 192]⟩ 1)
    (r : Fin a) (j : Fin 192) :
    concatenate ⟨2, ![a, 192]⟩ 1 [⟨⟨2, ![a, 64]⟩, x0⟩, ⟨⟨2, ![a, 64]⟩, x1⟩, ⟨⟨2, ![a, 64]⟩, x2⟩] h (ix2 r j)
      = pick3 (fun q => x0 (ix2 r q)) (fun q => x1 (ix2 r q)) (fun q => x2 (ix2 r q)) j := by
  unfold pick3
  by_cases hj : j.val < 64
  · rw [dif_pos hj]
    refine concatenate_apply_piece 1 _ h (ix2 r j) 0 (by show 0 < 3; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    by_cases hj' : j.val < 128
    · rw [dif_pos hj']
      refine concatenate_apply_piece 1 _ h (ix2 r j) 1 (by show 1 < 3; omega) ⟨2, ![a, 64]⟩ x1 rfl rfl 64 rfl
        (ix2 r ⟨j.val - 64, by omega⟩) ?_ ?_
      · intro ax hax
        match ax with
        | ⟨0, _⟩ => rfl
        | ⟨1, _⟩ => exact absurd rfl hax
      · show 64 + (j.val - 64) = j.val
        omega
    · rw [dif_neg hj']
      refine concatenate_apply_piece 1 _ h (ix2 r j) 2 (by show 2 < 3; omega) ⟨2, ![a, 64]⟩ x2 rfl rfl 128 rfl
        (ix2 r ⟨j.val - 128, by have := j.isLt; omega⟩) ?_ ?_
      · intro ax hax
        match ax with
        | ⟨0, _⟩ => rfl
        | ⟨1, _⟩ => exact absurd rfl hax
      · show 128 + (j.val - 128) = j.val
        omega

end Pieces

/-! ## The perceptron at an entry -/

variable {a K H O : ℕ}

/-- relu (x · W₁ + b₁) · W₂ + b₂ at column u, from one row x of the input. -/
def mlp (x : Fin K → EReal) (W1 : (⟨2, ![K, H]⟩ : Shape).Idx → EReal) (b1 : Fin H → EReal)
    (W2 : (⟨2, ![H, O]⟩ : Shape).Idx → EReal) (b2 : Fin O → EReal) (u : Fin O) : EReal :=
  (∑ k : Fin H, max ((∑ j : Fin K, x j * W1 (ix2 j k)) + b1 k) (Ideal.ofBits .f32 0x00000000#32) * W2 (ix2 k u)) + b2 u

/-- A 1 × n row, cast to its own shape and repeated down a rows, reads at (p, u) the row's entry u. -/
theorem rowBias_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

/-- A vector of n numbers taken to a 1 × n row and then repeated down a rows reads at (p, u) the vector's entry u. -/
theorem vecBias_apply {α : Type} {n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1])
    (p : Fin a) (u : Fin n) :
    broadcastInDim ⟨2, ![a, n]⟩ ![0, 1] h2 (broadcastInDim ⟨2, ![1, n]⟩ ![1] h1 v) (ix2 p u) = v (ix1 u) := by
  rw [broadcastInDim_apply ![0, 1] h2 _ (ix2 p u) (ix2 (0 : Fin 1) u) (fun ax => by
    match ax with
    | ⟨0, _⟩ => rfl
    | ⟨1, _⟩ =>
      show u.val = if n = 1 then 0 else u.val
      split
      · have := u.isLt; omega
      · rfl)]
  refine broadcastInDim_apply ![1] h1 v (ix2 (0 : Fin 1) u) (ix1 u) fun ax => ?_
  match ax with
  | ⟨0, _⟩ =>
    show u.val = if n = 1 then 0 else u.val
    split
    · have := u.isLt; omega
    · rfl

/-- The kernel's spelling, at entry (p, u), is the perceptron of row p. -/
theorem kernel_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨2, ![1, H]⟩ .f32) (b2 : FVec Ideal ⟨2, ![1, O]⟩ .f32)
    (hc1 : (⟨2, ![1, H]⟩ : Shape).ShapeCasts ⟨2, ![1, H]⟩) (hb1 : (⟨2, ![1, H]⟩ : Shape).Broadcasts ⟨2, ![a, H]⟩)
    (hc2 : (⟨2, ![1, O]⟩ : Shape).ShapeCasts ⟨2, ![1, O]⟩) (hb2 : (⟨2, ![1, O]⟩ : Shape).Broadcasts ⟨2, ![a, O]⟩)
    (hlt : (FTy.bf16).bits < (FTy.f32).bits) (p : Fin a) (u : Fin O) :
    addf (matmul D2 none
          (truncf .bf16 (maximumf (addf (matmul D1 none x W1 (constant ⟨2, ![a, H]⟩ .f32 0x00000000#32))
              (broadcastTo ⟨2, ![a, H]⟩ (shapeCast ⟨2, ![1, H]⟩ b1 hc1) hb1))
            (broadcast ⟨2, ![a, H]⟩ (Scalar.ofBits (F := Ideal) .f32 0x00000000#32))) hlt)
          W2 (constant ⟨2, ![a, O]⟩ .f32 0x00000000#32))
        (broadcastTo ⟨2, ![a, O]⟩ (shapeCast ⟨2, ![1, O]⟩ b2 hc2) hb2) (ix2 p u)
      = mlp (fun j => x (ix2 p j)) W1 (fun k => b1 (ix2 (0 : Fin 1) k)) W2 (fun v => b2 (ix2 (0 : Fin 1) v)) u := by
  show FloatOps.matmul D2 none _ W2 (constant ⟨2, ![a, O]⟩ .f32 0x00000000#32) (ix2 p u)
      + broadcastTo ⟨2, ![a, O]⟩ (shapeCast ⟨2, ![1, O]⟩ b2 hc2) hb2 (ix2 p u) = _
  rw [Cert.RowsProduct.matmul_zero_rows_apply D2 none h2r h2s h2l0 h2l1 h2r0 h2r1, rowBias_apply]
  unfold mlp
  refine congrArg (· + b2 (ix2 (0 : Fin 1) u)) (Finset.sum_congr rfl fun k _ => ?_)
  show max (FloatOps.matmul D1 none x W1 (constant ⟨2, ![a, H]⟩ .f32 0x00000000#32) (ix2 p k)
      + broadcastTo ⟨2, ![a, H]⟩ (shapeCast ⟨2, ![1, H]⟩ b1 hc1) hb1 (ix2 p k)) (Ideal.ofBits .f32 0x00000000#32) * W2 (ix2 k u) = _
  rw [Cert.RowsProduct.matmul_zero_rows_apply D1 none h1r h1s h1l0 h1l1 h1r0 h1r1, rowBias_apply]

/-- The host's spelling, at entry (p, u), is the perceptron of row p. -/
theorem host_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨1, ![H]⟩ .f32) (b2 : FVec Ideal ⟨1, ![O]⟩ .f32)
    (hv1 : (⟨1, ![H]⟩ : Shape).BroadcastsInDim ⟨2, ![1, H]⟩ ![1])
    (hw1 : (⟨2, ![1, H]⟩ : Shape).BroadcastsInDim ⟨2, ![a, H]⟩ ![0, 1])
    (hv2 : (⟨1, ![O]⟩ : Shape).BroadcastsInDim ⟨2, ![1, O]⟩ ![1])
    (hw2 : (⟨2, ![1, O]⟩ : Shape).BroadcastsInDim ⟨2, ![a, O]⟩ ![0, 1])
    (hz : (⟨0, ![]⟩ : Shape).BroadcastsInDim ⟨2, ![a, H]⟩ ![]) (p : Fin a) (u : Fin O) :
    addf (Host.dotGeneral D2 none
          (maximumf (addf (Host.dotGeneral D1 none x W1)
              (broadcastInDim ⟨2, ![a, H]⟩ ![0, 1] hw1 (broadcastInDim ⟨2, ![1, H]⟩ ![1] hv1 b1)))
            (broadcastInDim ⟨2, ![a, H]⟩ ![] hz (constant (F := Ideal) ⟨0, ![]⟩ .f32 0x00000000#32)))
          W2)
        (broadcastInDim ⟨2, ![a, O]⟩ ![0, 1] hw2 (broadcastInDim ⟨2, ![1, O]⟩ ![1] hv2 b2)) (ix2 p u)
      = mlp (fun j => x (ix2 p j)) W1 (fun k => b1 (ix1 k)) W2 (fun v => b2 (ix1 v)) u := by
  show FloatOps.dotGeneral D2 none .single _ W2 (ix2 p u)
      + broadcastInDim ⟨2, ![a, O]⟩ ![0, 1] hw2 (broadcastInDim ⟨2, ![1, O]⟩ ![1] hv2 b2) (ix2 p u) = _
  rw [Cert.RowsProduct.dotGeneral_rows_apply D2 none .single h2r h2s h2l0 h2l1 h2r0 h2r1, vecBias_apply]
  unfold mlp
  refine congrArg (· + b2 (ix1 u)) (Finset.sum_congr rfl fun k _ => ?_)
  show max (FloatOps.dotGeneral D1 none .single x W1 (ix2 p k)
      + broadcastInDim ⟨2, ![a, H]⟩ ![0, 1] hw1 (broadcastInDim ⟨2, ![1, H]⟩ ![1] hv1 b1) (ix2 p k))
      (broadcastInDim ⟨2, ![a, H]⟩ ![] hz (constant (F := Ideal) ⟨0, ![]⟩ .f32 0x00000000#32) (ix2 p k)) * W2 (ix2 k u) = _
  rw [Cert.RowsProduct.dotGeneral_rows_apply D1 none .single h1r h1s h1l0 h1l1 h1r0 h1r1, vecBias_apply,
    broadcastInDim_scalar_apply]
  rfl

/-! ## The logistic function, spelt out on the host -/

/-- 1 / (1 + exp (−y)), the ones scalar arrays repeated, is at each entry the logistic function of the entry. -/
theorem host_logistic_apply {s : Shape} (h1 h2 : (⟨0, ![]⟩ : Shape).BroadcastsInDim s ![])
    (y : FVec Ideal s .f32) (i : s.Idx) :
    Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf y))) i
      = Ideal.logistic (y i) := by
  show Ideal.div (broadcastInDim s ![] h1 (constant (F := Ideal) ⟨0, ![]⟩ .f32 0x3F800000#32) i)
      (broadcastInDim s ![] h2 (constant (F := Ideal) ⟨0, ![]⟩ .f32 0x3F800000#32) i + Ideal.exp (-(y i))) = _
  simp only [broadcastInDim_scalar_apply]
  show Ideal.div (Ideal.ofBits .f32 0x3F800000#32) (Ideal.ofBits .f32 0x3F800000#32 + Ideal.exp (-(y i))) = _
  rw [Ideal.ofBits_one_f32]
  rfl

end Cert.RowPerceptron

end
-- ==== Proof.Region0.lean ====
/-
  The first kernel: h₀ = x · W_in + b_in, ten thousand rows at a time.

  Point t of the grid reads rows 10000·t … 10000·t + 9999 of x, the whole of W_in and the one row b_in, and writes
  the same rows of both of its output arrays: entry (r, u) of either is  Σ_k x (r, k) · W_in (k, u) + b_in (0, u),
  the second array being the first with its format narrowed, which on the extended reals changes nothing.  The ten
  row blocks tile the 100000 rows, so after the run each output array is that one function of the arrays the
  kernel found on entry.
-/
import proofs.«178080_j70463233458547_2_alg».proof.Proof.Gen.KernelIdeal.Frame
import proofs.«178080_j70463233458547_2_alg».proof.Proof.LibRowPerceptron
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension record -/

theorem lhs0 (i : S10000x128.Idx) (q : dot_S10000x24_S24x128_S10000x128_1_0_0_1_n_n.contr.Idx) : (dot_S10000x24_S24x128_S10000x128_1_0_0_1_n_n.lhsIdx i q 0).val = (i 0).val := by
  unfold DotDims.lhsIdx
  rw [dif_neg (show ¬(0 : Fin S10000x24.rank) ∈ dot_S10000x24_S24x128_S10000x128_1_0_0_1_n_n.lhsBatch by decide), dif_pos (show (0 : Fin S10000x24.rank) ∈ dot_S10000x24_S24x128_S10000x128_1_0_0_1_n_n.lhsNonContracting by decide)]
  rfl
theorem lhs1 (i : S10000x128.Idx) (q : dot_S10000x24_S24x128_S10000x128_1_0_0_1_n_n.contr.Idx) : (dot_S10000x24_S24x128_S10000x128_1_0_0_1_n_n.lhsIdx i q 1).val = (q ⟨0, by decide⟩).val :=
  dot_S10000x24_S24x128_S10000x128_1_0_0_1_n_n.lhsIdx_val_of_single rfl i q
theorem rhs0 (i : S10000x128.Idx) (q : dot_S10000x24_S24x128_S10000x128_1_0_0_1_n_n.contr.Idx) : (dot_S10000x24_S24x128_S10000x128_1_0_0_1_n_n.rhsIdx i q 0).val = (q ⟨0, by decide⟩).val :=
  dot_S10000x24_S24x128_S10000x128_1_0_0_1_n_n.rhsIdx_val_of_single rfl i q
theorem rhs1 (i : S10000x128.Idx) (q : dot_S10000x24_S24x128_S10000x128_1_0_0_1_n_n.contr.Idx) : (dot_S10000x24_S24x128_S10000x128_1_0_0_1_n_n.rhsIdx i q 1).val = (i 1).val := by
  unfold DotDims.rhsIdx
  rw [dif_neg (show ¬(1 : Fin S24x128.rank) ∈ dot_S10000x24_S24x128_S10000x128_1_0_0_1_n_n.rhsBatch by decide), dif_pos (show (1 : Fin S24x128.rank) ∈ dot_S10000x24_S24x128_S10000x128_1_0_0_1_n_n.rhsNonContracting by decide)]
  rfl

/-! ## The body's result at an entry -/

/-- Row p of the block times column u of the weights, plus the bias row's entry u. -/
theorem pay1_apply (x0 : Vec Ideal S10000x24 .f32) (x1 : Vec Ideal S24x128 .f32) (x2 : Vec Ideal S1x128 .f32)
    (p : Fin 10000) (u : Fin 128) :
    k0_pay1 (F := Ideal) x0 x1 x2 (ix2 p u) = (∑ k : Fin 24, x0 (ix2 p k) * x1 (ix2 k u)) + x2 (ix2 (0 : Fin 1) u) := by
  unfold k0_pay1
  show FloatOps.matmul (F := Ideal) dot_S10000x24_S24x128_S10000x128_1_0_0_1_n_n none (truncf (F := Ideal) .bf16 x0 bitsLt_bf16_f32) (truncf (F := Ideal) .bf16 x1 bitsLt_bf16_f32) (constant (F := Ideal) S10000x128 .f32 0x00000000#32) (ix2 p u)
      + broadcastTo S10000x128 (shapeCast S1x128 x2 shapeCasts_S1x128_S1x128) broadcasts_S1x128_S10000x128 (ix2 p u) = _
  rw [Cert.RowsProduct.matmul_zero_rows_apply dot_S10000x24_S24x128_S10000x128_1_0_0_1_n_n none rfl rfl lhs0 lhs1 rhs0 rhs1, Cert.RowPerceptron.rowBias_apply]
  rfl

/-- The narrowed copy holds the same numbers. -/
theorem pay2_apply (x0 : Vec Ideal S10000x24 .f32) (x1 : Vec Ideal S24x128 .f32) (x2 : Vec Ideal S1x128 .f32)
    (j : S10000x128.Idx) : k0_pay2 (F := Ideal) x0 x1 x2 j = k0_pay1 (F := Ideal) x0 x1 x2 j := rfl

/-! ## The whole array -/

/-- x · W + b as one array, the bias a 1 × 128 row. -/
def lin (x : S100000x24.Idx → EReal) (w : S24x128.Idx → EReal) (b : S1x128.Idx → EReal) : S100000x128.Idx → EReal :=
  fun i => (∑ k : Fin 24, x (ix2 ⟨(i 0).val, (i 0).isLt⟩ k) * w (ix2 k ⟨(i 1).val, (i 1).isLt⟩)) + b (ix2 (0 : Fin 1) ⟨(i 1).val, (i 1).isLt⟩)

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block t, the weights and the bias always at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry (p, k) of the rows block at point t is entry (10000·t + p, k) of the array of rows. -/
theorem rows_block (c : Dev nD) (t : Fin cfg0.N) (p : Fin 10000) (k : Fin 24) (r : Fin 100000) (hr : r.val = t.val * 10000 + p.val) :
    (iblk0 V c 0 t : Vec Ideal S10000x24 .f32) (ix2 p k) = V c main_arg0 (ix2 r k) := by
  obtain ⟨e00, e01, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 24 + 1 * k.val = k.val; omega

/-- The weights block at every point is the whole array of weights. -/
theorem weights_block (c : Dev nD) (t : Fin cfg0.N) (k : Fin 24) (u : Fin 128) :
    (iblk0 V c 1 t : Vec Ideal S24x128 .f32) (ix2 k u) = V c main_arg3 (ix2 k u) := by
  obtain ⟨-, -, e10, e11, -⟩ := idx_facts t
  show V c main_arg3 (((cfg0.win 1).blk t).view.emb (ix2 k u)) = _
  refine congrArg (V c main_arg3) (funext fun a => Fin.ext ?_)
  match a with
  | ⟨0, _⟩ => show win0_1.index t (0 : Fin 2) * 24 + 1 * k.val = k.val; omega
  | ⟨1, _⟩ => show win0_1.index t (1 : Fin 2) * 128 + 1 * u.val = u.val; omega

/-- The bias block at every point is the whole bias row. -/
theorem bias_block (c : Dev nD) (t : Fin cfg0.N) (u : Fin 128) :
    (iblk0 V c 2 t : Vec Ideal S1x128 .f32) (ix2 (0 : Fin 1) u) = V c main_call0_v4 (ix2 (0 : Fin 1) u) := by
  obtain ⟨-, -, -, -, e20, e21, -⟩ := idx_facts t
  show V c main_call0_v4 (((cfg0.win 2).blk t).view.emb (ix2 (0 : Fin 1) u)) = _
  refine congrArg (V c main_call0_v4) (funext fun a => Fin.ext ?_)
  match a with
  | ⟨0, _⟩ => show win0_2.index t (0 : Fin 2) * 1 + 1 * 0 = 0; omega
  | ⟨1, _⟩ => show win0_2.index t (1 : Fin 2) * 128 + 1 * u.val = u.val; omega

/-- `lin` at the entry whose row is r and column u. -/
theorem lin_apply (x : S100000x24.Idx → EReal) (w : S24x128.Idx → EReal) (b : S1x128.Idx → EReal) (r : Fin 100000) (u : Fin 128) :
    lin x w b (ix2 r u) = (∑ k : Fin 24, x (ix2 r k) * w (ix2 k u)) + b (ix2 (0 : Fin 1) u) := rfl

/-- What point t writes back through the first output window is block t of `lin` of the arrays on entry. -/
theorem flushed3_eq (c : Dev nD) (t : Fin cfg0.N) :
    (dat0 V c).flushed 3 t = ((cfg0.win 3).blk t).view.read (Elt Ideal) (lin (V c main_arg0) (V c main_arg3) (V c main_call0_v4)) := by
  show (cfg0.win 3).cut (grid0.coords t) ((dat0 V c).after 3 t) = _
  rw [after0_3]
  unfold out0_3
  rw [View.canon_unit_zero hz]
  simp only [View.ld_unit_zero (S := S10000x24) hz, View.ld_unit_zero (S := S24x128) hz, View.ld_unit_zero (S := S1x128) hz]
  obtain ⟨-, -, -, -, -, -, e30, e31, -⟩ := idx_facts t
  funext j
  obtain ⟨p, u, rfl⟩ : ∃ (p : Fin 10000) (u : Fin 128), j = ix2 p u := ⟨j 0, j 1, eq_ix2 j⟩
  have hr : t.val * 10000 + p.val < 100000 := by have := t.isLt; have := p.isLt; have hN : cfg0.N = 10 := N_0; omega
  have hi : ((cfg0.win 3).blk t).view.emb (ix2 p u) = ix2 (⟨t.val * 10000 + p.val, hr⟩ : Fin 100000) u := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * u.val = u.val; omega
  refine (pay1_apply _ _ _ p u).trans ?_
  refine Eq.trans ?_ (congrArg (lin (V c main_arg0) (V c main_arg3) (V c main_call0_v4)) hi).symm
  rw [lin_apply]
  refine congrArg₂ (· + ·) (Finset.sum_congr rfl fun k _ => congrArg₂ (· * ·) (rows_block V c t p k _ rfl) (weights_block V c t k u)) (bias_block V c t u)

/-- The second output window writes back the same block, its format narrowed. -/
theorem flushed4_eq (c : Dev nD) (t : Fin cfg0.N) :
    (dat0 V c).flushed 4 t = ((cfg0.win 4).blk t).view.read (Elt Ideal) (lin (V c main_arg0) (V c main_arg3) (V c main_call0_v4)) := by
  show (cfg0.win 4).cut (grid0.coords t) ((dat0 V c).after 4 t) = _
  rw [after0_4]
  unfold out0_4
  rw [View.canon_unit_zero hz]
  simp only [View.ld_unit_zero (S := S10000x24) hz, View.ld_unit_zero (S := S24x128) hz, View.ld_unit_zero (S := S1x128) hz]
  obtain ⟨-, -, -, -, -, -, -, -, e40, e41⟩ := idx_facts t
  funext j
  obtain ⟨p, u, rfl⟩ : ∃ (p : Fin 10000) (u : Fin 128), j = ix2 p u := ⟨j 0, j 1, eq_ix2 j⟩
  have hr : t.val * 10000 + p.val < 100000 := by have := t.isLt; have := p.isLt; have hN : cfg0.N = 10 := N_0; omega
  have hi : ((cfg0.win 4).blk t).view.emb (ix2 p u) = ix2 (⟨t.val * 10000 + p.val, hr⟩ : Fin 100000) u := by
    funext a; apply Fin.ext
    match a with
    | ⟨0, _⟩ => show win0_4.index t (0 : Fin 2) * 10000 + 1 * p.val = t.val * 10000 + p.val; omega
    | ⟨1, _⟩ => show win0_4.index t (1 : Fin 2) * 128 + 1 * u.val = u.val; omega
  refine (pay2_apply _ _ _ (ix2 p u)).trans ((pay1_apply _ _ _ p u).trans ?_)
  refine Eq.trans ?_ (congrArg (lin (V c main_arg0) (V c main_arg3) (V c main_call0_v4)) hi).symm
  rw [lin_apply]
  refine congrArg₂ (· + ·) (Finset.sum_congr rfl fun k _ => congrArg₂ (· * ·) (rows_block V c t p k _ rfl) (weights_block V c t k u)) (bias_block V c t u)

/-- An entry of the array is in point t's block of the first output window iff its row is one of the block's rows. -/
theorem mem_blk3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_call0_v5_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_call0_v5_1).slice (win0_4.rect t)).set ↔ _
  rw [View.set_slice_whole, Rect.mem_set_unit]
  exact Iff.rfl

/-- Row r lies in the block of point r / 10000. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by omega⟩
  obtain ⟨-, -, -, -, -, -, e30, e31, -⟩ := idx_facts t
  have ht : t.val = (i 0).val / 10000 := rfl
  refine ⟨t, flush0_3 t, ?_⟩
  rw [mem_blk3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 10 := N_0
  let t : Fin cfg0.N := ⟨(i 0).val / 10000, by omega⟩
  obtain ⟨-, -, -, -, -, -, -, -, e40, e41⟩ := idx_facts t
  have ht : t.val = (i 0).val / 10000 := rfl
  refine ⟨t, flush0_4 t, ?_⟩
  rw [mem_blk4]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- After the run the first output array is `lin` of the arrays the kernel found on entry. -/
theorem final3 (c : Dev nD) : (dat0 V c).arrAt 3 cfg0.N = lin (V c main_arg0) (V c main_arg3) (V c main_call0_v4) :=
  (dat0 V c).arrAt_eq_of_cover 3 _ (fun t _ => flushed3_eq V c t) cover3

/-- And so is the second. -/
theorem final4 (c : Dev nD) : (dat0 V c).arrAt 4 cfg0.N = lin (V c main_arg0) (V c main_arg3) (V c main_call0_v4) :=
  (dat0 V c).arrAt_eq_of_cover 4 _ (fun t _ => flushed4_eq V c t) cover4

end Blocks

end Cert.KernelIdeal.Region0

end
-- ==== Proof.Region1.lean ====
/-
  The second kernel: the edge rows e = edge_attr · W_e + b_e, eight thousand edges at a time.

  Point t of the grid reads rows 8000·t … 8000·t + 7999 of edge_attr, the whole of W_e and the one row b_e, and
  writes the same rows of its output array: entry (r, u) is  Σ_k edge_attr (r, k) · W_e (k, u) + b_e (0, u), its
  format narrowed on the way out, which on the extended reals changes nothing.  The two hundred row blocks tile the
  1600000 rows, so after the run the output array is that one function of the arrays the kernel found on entry.
-/
import proofs.«178080_j70463233458547_2_alg».proof.Proof.Gen.KernelIdeal.Frame
import proofs.«178080_j70463233458547_2_alg».proof.Proof.LibRowPerceptron
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension record -/

theorem lhsA (i : S8000x128.Idx) (q : dot_S8000x2_S2x128_S8000x128_1_0_0_1_n_n.contr.Idx) : (dot_S8000x2_S2x128_S8000x128_1_0_0_1_n_n.lhsIdx i q 0).val = (i 0).val := by
  unfold DotDims.lhsIdx
  rw [dif_neg (show ¬(0 : Fin S8000x2.rank) ∈ dot_S8000x2_S2x128_S8000x128_1_0_0_1_n_n.lhsBatch by decide), dif_pos (show (0 : Fin S8000x2.rank) ∈ dot_S8000x2_S2x128_S8000x128_1_0_0_1_n_n.lhsNonContracting by decide)]
  rfl
theorem lhsB (i : S8000x128.Idx) (q : dot_S8000x2_S2x128_S8000x128_1_0_0_1_n_n.contr.Idx) : (dot_S8000x2_S2x128_S8000x128_1_0_0_1_n_n.lhsIdx i q 1).val = (q ⟨0, by decide⟩).val :=
  dot_S8000x2_S2x128_S8000x128_1_0_0_1_n_n.lhsIdx_val_of_single rfl i q
theorem rhsA (i : S8000x128.Idx) (q : dot_S8000x2_S2x128_S8000x128_1_0_0_1_n_n.contr.Idx) : (dot_S8000x2_S2x128_S8000x128_1_0_0_1_n_n.rhsIdx i q 0).val = (q ⟨0, by decide⟩).val :=
  dot_S8000x2_S2x128_S8000x128_1_0_0_1_n_n.rhsIdx_val_of_single rfl i q
theorem rhsB (i : S8000x128.Idx) (q : dot_S8000x2_S2x128_S8000x128_1_0_0_1_n_n.contr.Idx) : (dot_S8000x2_S2x128_S8000x128_1_0_0_1_n_n.rhsIdx i q 1).val = (i 1).val := by
  unfold DotDims.rhsIdx
  rw [dif_neg (show ¬(1 : Fin S2x128.rank) ∈ dot_S8000x2_S2x128_S8000x128_1_0_0_1_n_n.rhsBatch by decide), dif_pos (show (1 : Fin S2x128.rank) ∈ dot_S8000x2_S2x128_S8000x128_1_0_0_1_n_n.rhsNonContracting by decide)]
  rfl

/-! ## The body's result at an entry -/

/-- Row p of the block times column u of the weights, plus the bias row's entry u. -/
theorem pay1_apply (x0 : Vec Ideal S8000x2 .f32) (x1 : Vec Ideal S2x128 .f32) (x2 : Vec Ideal S1x128 .f32)
    (p : Fin 8000) (u : Fin 128) :
    k1_pay1 (F := Ideal) x0 x1 x2 (ix2 p u) = (∑ k : Fin 2, x0 (ix2 p k) * x1 (ix2 k u)) + x2 (ix2 (0 : Fin 1) u) := by
  unfold k1_pay1
  show FloatOps.matmul (F := Ideal) dot_S8000x2_S2x128_S8000x128_1_0_0_1_n_n none (truncf (F := Ideal) .bf16 x0 bitsLt_bf16_f32) (truncf (F := Ideal) .bf16 x1 bitsLt_bf16_f32) (constant (F := Ideal) S8000x128 .f32 0x00000000#32) (ix2 p u)
      + broadcastTo S8000x128 (shapeCast S1x128 x2 shapeCasts_S1x128_S1x128) broadcasts_S1x128_S8000x128 (ix2 p u) = _
  rw [Cert.RowsProduct.matmul_zero_rows_apply dot_S8000x2_S2x128_S8000x128_1_0_0_1_n_n none rfl rfl lhsA lhsB rhsA rhsB, Cert.RowPerceptron.rowBias_apply]
  rfl

/-! ## The whole array -/

/-- edge_attr · W + b as one array, the bias a 1 × 128 row. -/
def lin (x : S1600000x2.Idx → EReal) (w : S2x128.Idx → EReal) (b : S1x128.Idx → EReal) : S1600000x128.Idx → EReal :=
  fun i => (∑ k : Fin 2, x (ix2 ⟨(i 0).val, (i 0).isLt⟩ k) * w (ix2 k ⟨(i 1).val, (i 1).isLt⟩)) + b (ix2 (0 : Fin 1) ⟨(i 1).val, (i 1).isLt⟩)

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block t, the weights and the bias always at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the rows block at point t is entry (8000·t + p, k) of the array of rows. -/
theorem rows_block (c : Dev nD) (t : Fin cfg1.N) (p : Fin 8000) (k : Fin 2) (r : Fin 1600000) (hr : r.val = t.val * 8000 + p.val) :
    (iblk1 V c 0 t : Vec Ideal S8000x2 .f32) (ix2 p k) = V c main_arg2 (ix2 r k) := by
  obtain ⟨e00, e01, -⟩ := idx_facts t
  show V c main_arg2 (((cfg1.win 0).blk t).view.emb (ix2 p k)) = _
  refine congrArg (V c main_arg2) (funext fun a => Fin.ext ?_)
  match a with
  | ⟨0, _⟩ => show win1_0.index t (0 : Fin 2) * 8000 + 1 * p.val = r.val; omega
  | ⟨1, _⟩ => show win1_0.index t (1 : Fin 2) * 2 + 1 * k.val = k.val; omega

/-- The weights block at every point is the whole array of weights. -/
theorem weights_block (c : Dev nD) (t : Fin cfg1.N) (k : Fin 2) (u : Fin 128) :
    (iblk1 V c 1 t : Vec Ideal S2x128 .f32) (ix2 k u) = V c main_arg5 (ix2 k u) := by
  obtain ⟨-, -, e10, e11, -⟩ := idx_facts t
  show V c main_arg5 (((cfg1.win 1).blk t).view.emb (ix2 k u)) = _
  refine congrArg (V c main_arg5) (funext fun a => Fin.ext ?_)
  match a with
  | ⟨0, _⟩ => show win1_1.index t (0 : Fin 2) * 2 + 1 * k.val = k.val; omega
  | ⟨1, _⟩ => show win1_1.index t (1 : Fin 2) * 128 + 1 * u.val = u.val; omega

/-- The bias block at every point is the whole bias row. -/
theorem bias_block (c : Dev nD) (t : Fin cfg1.N) (u : Fin 128) :
    (iblk1 V c 2 t : Vec Ideal S1x128 .f32) (ix2 (0 : Fin 1) u) = V c main_call0_v6 (ix2 (0 : Fin 1) u) := by
  obtain ⟨-, -, -, -, e20, e21, -⟩ := idx_facts t
  show V c main_call0_v6 (((cfg1.win 2).blk t).view.emb (ix2 (0 : Fin 1) u)) = _
  refine congrArg (V c main_call0_v6) (funext fun a => Fin.ext ?_)
  match a with
  | ⟨0, _⟩ => show win1_2.index t (0 : Fin 2) * 1 + 1 * 0 = 0; omega
  | ⟨1, _⟩ => show win1_2.index t (1 : Fin 2) * 128 + 1 * u.val = u.val; omega

/-- `lin` at the entry whose row is r and column u. -/
theorem lin_apply (x : S1600000x2.Idx → EReal) (w : S2x128.Idx → EReal) (b : S1x128.Idx → EReal) (r : Fin 1600000) (u : Fin 128) :
    lin x w b (ix2 r u) = (∑ k : Fin 2, x (ix2 r k) * w (ix2 k u)) + b (ix2 (0 : Fin 1) u) := rfl

/-- What point t writes back through the first output window is block t of `lin` of the arrays on entry. -/
theorem flushed3_eq (c : Dev nD) (t : Fin cfg1.N) :
    (dat1 V c).flushed 3 t = ((cfg1.win 3).blk t).view.read (Elt Ideal) (lin (V c main_arg2) (V c main_arg5) (V c main_call0_v6)) := by
  show (cfg1.win 3).cut (grid1.coords t) ((dat1 V c).after 3 t) = _
  rw [after1_3]
  unfold out1_3
  rw [View.canon_unit_zero hz]
  simp only [View.ld_unit_zero (S := S8000x2) hz, View.ld_unit_zero (S := S2x128) hz, View.ld_unit_zero (S := S1x128) hz]
  obtain ⟨-, -, -, -, -, -, e30, e31⟩ := idx_facts t
  funext j
  obtain ⟨p, u, rfl⟩ : ∃ (p : Fin 8000) (u : Fin 128), j = ix2 p u := ⟨j 0, j 1, eq_ix2 j⟩
  have hr : t.val * 8000 + p.val < 1600000 := by have := t.isLt; have := p.isLt; have hN : cfg1.N = 200 := N_1; omega
  have hi : ((cfg1.win 3).blk t).view.emb (ix2 p u) = ix2 (⟨t.val * 8000 + p.val, hr⟩ : Fin 1600000) u := by
    funext a; apply Fin.ext
    match a with
    | ⟨0, _⟩ => show win1_3.index t (0 : Fin 2) * 8000 + 1 * p.val = t.val * 8000 + p.val; omega
    | ⟨1, _⟩ => show win1_3.index t (1 : Fin 2) * 128 + 1 * u.val = u.val; omega
  refine (pay1_apply _ _ _ p u).trans ?_
  refine Eq.trans ?_ (congrArg (lin (V c main_arg2) (V c main_arg5) (V c main_call0_v6)) hi).symm
  rw [lin_apply]
  refine congrArg₂ (· + ·) (Finset.sum_congr rfl fun k _ => congrArg₂ (· * ·) (rows_block V c t p k _ rfl) (weights_block V c t k u)) (bias_block V c t u)

/-- An entry of the array is in point t's block of the first output window iff its row is one of the block's rows. -/
theorem mem_blk3 (t : Fin cfg1.N) (i : S1600000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_call0_v7).slice (win1_3.rect t)).set ↔ _
  rw [View.set_slice_whole, Rect.mem_set_unit]
  exact Iff.rfl

/-- Row r lies in the block of point r / 8000. -/
theorem cover3 (i : S1600000x128.Idx) : ∃ t : Fin cfg1.N, (cfg1.win 3).flush t = true ∧ i ∈ ((cfg1.win 3).blk t).view.set := by
  have hi0 : (i 0).val < 1600000 := (i 0).isLt
  have hi1 : (i 1).val < 128 := (i 1).isLt
  have hN : cfg1.N = 200 := N_1
  let t : Fin cfg1.N := ⟨(i 0).val / 8000, by omega⟩
  obtain ⟨-, -, -, -, -, -, e30, e31⟩ := idx_facts t
  have ht : t.val = (i 0).val / 8000 := rfl
  refine ⟨t, flush1_3 t, ?_⟩
  rw [mem_blk3]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- After the run the first output array is `lin` of the arrays the kernel found on entry. -/
theorem final3 (c : Dev nD) : (dat1 V c).arrAt 3 cfg1.N = lin (V c main_arg2) (V c main_arg5) (V c main_call0_v6) :=
  (dat1 V c).arrAt_eq_of_cover 3 _ (fun t _ => flushed3_eq V c t) cover3

end Blocks

end Cert.KernelIdeal.Region1

end
-- ==== Proof.Region2.lean ====
/-
  The third kernel: the first layer's update, five thousand nodes at a time.

  Point t of the grid reads rows 5000·t … 5000·t + 4999 of the node rows h and of the edge sums s, the two weight
  arrays whole and the two bias rows, and writes the same rows of both of its output arrays: row r of either is
  relu (relu ((h + s)(r, ·) · W₁ + b₁) · W₂ + b₂), the second array being the first with its format narrowed, which on
  the extended reals changes nothing.  The twenty row blocks tile the 100000 rows, so after the run each output array
  is that one function of the arrays the kernel found on entry.
-/
import proofs.«178080_j70463233458547_2_alg».proof.Proof.Gen.KernelIdeal.Frame
import proofs.«178080_j70463233458547_2_alg».proof.Proof.LibRowPerceptron
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-! ## The two products' dimension record -/

theorem lhsA (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhsA (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhsB (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's result at an entry -/

/-- Entry (p, u) of the body's result is the perceptron of row p of the two row blocks added, clipped below at zero. -/
theorem pay1_apply (v0 v2 : Vec Ideal S5000x128 .f32) (v6 : Vec Ideal S128x128 .f32) (v9 : Vec Ideal S1x128 .f32)
    (v16 : Vec Ideal S128x128 .f32) (v19 : Vec Ideal S1x128 .f32) (p : Fin 5000) (u : Fin 128) :
    k2_pay1 (F := Ideal) v0 v2 v6 v9 v16 v19 (ix2 p u) = max (Cert.RowPerceptron.mlp (fun j : Fin 128 => v0 (ix2 p j) + v2 (ix2 p j)) v6 (fun k : Fin 128 => v9 (ix2 (0 : Fin 1) k)) v16 (fun v : Fin 128 => v19 (ix2 (0 : Fin 1) v)) u) (Ideal.ofBits .f32 0x00000000#32) := by
  unfold k2_pay1
  rw [shapeCast_self v0, shapeCast_self v2]
  refine (congrArg (fun y : EReal => max y (Ideal.ofBits .f32 0x00000000#32)) (Cert.RowPerceptron.kernel_mlp_apply dot_S5000x128_S128x128_S5000x128_1_0_0_1_n_n dot_S5000x128_S128x128_S5000x128_1_0_0_1_n_n rfl rfl lhsA lhsB rhsA rhsB rfl rfl lhsA lhsB rhsA rhsB
      (truncf (F := Ideal) .bf16 (addf (F := Ideal) v0 v2) bitsLt_bf16_f32) (truncf (F := Ideal) .bf16 v6 bitsLt_bf16_f32) (truncf (F := Ideal) .bf16 v16 bitsLt_bf16_f32) v9 v19
      shapeCasts_S1x128_S1x128 broadcasts_S1x128_S5000x128 shapeCasts_S1x128_S1x128 broadcasts_S1x128_S5000x128 bitsLt_bf16_f32 p u)).trans ?_
  rfl

/-- The narrowed copy holds the same numbers. -/
theorem pay2_apply (v0 v2 : Vec Ideal S5000x128 .f32) (v6 : Vec Ideal S128x128 .f32) (v9 : Vec Ideal S1x128 .f32)
    (v16 : Vec Ideal S128x128 .f32) (v19 : Vec Ideal S1x128 .f32) (j : S5000x128.Idx) :
    k2_pay2 (F := Ideal) v0 v2 v6 v9 v16 v19 j = k2_pay1 (F := Ideal) v0 v2 v6 v9 v16 v19 j := rfl

/-- The perceptron depends on its five arguments only. -/
theorem mlp_congr {x x' : Fin 128 → EReal} {w1 w1' w2 w2' : S128x128.Idx → EReal} {b1 b1' b2 b2' : Fin 128 → EReal}
    (hx : x = x') (h1 : w1 = w1') (hb1 : b1 = b1') (h2 : w2 = w2') (hb2 : b2 = b2') (u : Fin 128) :
    Cert.RowPerceptron.mlp x w1 b1 w2 b2 u = Cert.RowPerceptron.mlp x' w1' b1' w2' b2' u := by
  subst hx h1 hb1 h2 hb2; rfl

/-! ## The whole array -/

/-- The perceptron of every row of h + s, the biases 1 × 128 rows. -/
def upd (h s : S100000x128.Idx → EReal) (w1 : S128x128.Idx → EReal) (b1 : S1x128.Idx → EReal)
    (w2 : S128x128.Idx → EReal) (b2 : S1x128.Idx → EReal) : S100000x128.Idx → EReal :=
  fun i => Cert.RowPerceptron.mlp (fun j : Fin 128 => h (ix2 (⟨(i 0).val, (i 0).isLt⟩ : Fin 100000) j) + s (ix2 (⟨(i 0).val, (i 0).isLt⟩ : Fin 100000) j))
    w1 (fun k : Fin 128 => b1 (ix2 (0 : Fin 1) k)) w2 (fun v : Fin 128 => b2 (ix2 (0 : Fin 1) v)) (⟨(i 1).val, (i 1).isLt⟩ : Fin 128)

theorem upd_apply (h s : S100000x128.Idx → EReal) (w1 : S128x128.Idx → EReal) (b1 : S1x128.Idx → EReal)
    (w2 : S128x128.Idx → EReal) (b2 : S1x128.Idx → EReal) (r : Fin 100000) (u : Fin 128) :
    upd h s w1 b1 w2 b2 (ix2 r u) = Cert.RowPerceptron.mlp (fun j : Fin 128 => h (ix2 r j) + s (ix2 r j))
      w1 (fun k : Fin 128 => b1 (ix2 (0 : Fin 1) k)) w2 (fun v : Fin 128 => b2 (ix2 (0 : Fin 1) v)) u := rfl

/-- The same, clipped below at zero. -/
def updRelu (h s : S100000x128.Idx → EReal) (w1 : S128x128.Idx → EReal) (b1 : S1x128.Idx → EReal)
    (w2 : S128x128.Idx → EReal) (b2 : S1x128.Idx → EReal) : S100000x128.Idx → EReal :=
  fun i => max (upd h s w1 b1 w2 b2 i) (Ideal.ofBits .f32 0x00000000#32)

theorem updRelu_apply (h s : S100000x128.Idx → EReal) (w1 : S128x128.Idx → EReal) (b1 : S1x128.Idx → EReal)
    (w2 : S128x128.Idx → EReal) (b2 : S1x128.Idx → EReal) (r : Fin 100000) (u : Fin 128) :
    updRelu h s w1 b1 w2 b2 (ix2 r u) = max (Cert.RowPerceptron.mlp (fun j : Fin 128 => h (ix2 r j) + s (ix2 r j))
      w1 (fun k : Fin 128 => b1 (ix2 (0 : Fin 1) k)) w2 (fun v : Fin 128 => b2 (ix2 (0 : Fin 1) v)) u) (Ideal.ofBits .f32 0x00000000#32) := rfl

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block t, the weights and the biases always at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Entry (p, q) of the node rows block at point t is entry (5000·t + p, q) of the node array. -/
theorem rows_block (c : Dev nD) (t : Fin cfg2.N) (p : Fin 5000) (q : Fin 128) (r : Fin 100000) (hr : r.val = t.val * 5000 + p.val) :
    (iblk2 V c 0 t : Vec Ideal S5000x128 .f32) (ix2 p q) = V c main_call0_v5_0 (ix2 r q) := by
  have hf := idx_facts t
  show V c main_call0_v5_0 (((cfg2.win 0).blk t).view.emb (ix2 p q)) = _
  refine congrArg (V c main_call0_v5_0) (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

/-- Entry (p, q) of the edge sums block at point t is entry (5000·t + p, q) of the array of edge sums. -/
theorem sums_block (c : Dev nD) (t : Fin cfg2.N) (p : Fin 5000) (q : Fin 128) (r : Fin 100000) (hr : r.val = t.val * 5000 + p.val) :
    (iblk2 V c 1 t : Vec Ideal S5000x128 .f32) (ix2 p q) = V c main_call0_v21 (ix2 r q) := by
  have hf := idx_facts t
  show V c main_call0_v21 (((cfg2.win 1).blk t).view.emb (ix2 p q)) = _
  refine congrArg (V c main_call0_v21) (funext fun a => Fin.ext ?_)
  match a with
  | ⟨0, _⟩ => show win2_1.index t (0 : Fin 2) * 5000 + 1 * p.val = r.val; omega
  | ⟨1, _⟩ => show win2_1.index t (1 : Fin 2) * 128 + 1 * q.val = q.val; omega

/-- The first weights block at every point is the whole array. -/
theorem weights1_block (c : Dev nD) (t : Fin cfg2.N) : (iblk2 V c 2 t : Vec Ideal S128x128 .f32) = V c main_arg7 := by
  have hf := idx_facts t
  funext j
  show V c main_arg7 (((cfg2.win 2).blk t).view.emb j) = _
  refine congrArg (V c main_arg7) (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- The first bias block at every point is the whole bias row. -/
theorem bias1_block (c : Dev nD) (t : Fin cfg2.N) : (iblk2 V c 3 t : Vec Ideal S1x128 .f32) = V c main_call0_v22 := by
  have hf := idx_facts t
  funext j
  show V c main_call0_v22 (((cfg2.win 3).blk t).view.emb j) = _
  refine congrArg (V c main_call0_v22) (funext fun a => Fin.ext ?_)
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- The second weights block at every point is the whole array. -/
theorem weights2_block (c : Dev nD) (t : Fin cfg2.N) : (iblk2 V c 4 t : Vec Ideal S128x128 .f32) = V c main_arg9 := by
  have hf := idx_facts t
  funext j
  show V c main_arg9 (((cfg2.win 4).blk t).view.emb j) = _
  refine congrArg (V c main_arg9) (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- The second bias block at every point is the whole bias row. -/
theorem bias2_block (c : Dev nD) (t : Fin cfg2.N) : (iblk2 V c 5 t : Vec Ideal S1x128 .f32) = V c main_call0_v23 := by
  have hf := idx_facts t
  funext j
  show V c main_call0_v23 (((cfg2.win 5).blk t).view.emb j) = _
  refine congrArg (V c main_call0_v23) (funext fun a => Fin.ext ?_)
  match a with
  | ⟨0, _⟩ => show win2_5.index t (0 : Fin 2) * 1 + 1 * (j 0).val = (j 0).val; omega
  | ⟨1, _⟩ => show win2_5.index t (1 : Fin 2) * 128 + 1 * (j 1).val = (j 1).val; omega

/-- What point t writes back through the output window is block t of `updRelu` of the arrays on entry. -/
theorem flushed6_eq (c : Dev nD) (t : Fin cfg2.N) :
    (dat2 V c).flushed 6 t = ((cfg2.win 6).blk t).view.read (Elt Ideal) (updRelu (V c main_call0_v5_0) (V c main_call0_v21) (V c main_arg7) (V c main_call0_v22) (V c main_arg9) (V c main_call0_v23)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  have hf := idx_facts t
  funext j
  obtain ⟨p, u, rfl⟩ : ∃ (p : Fin 5000) (u : Fin 128), j = ix2 p u := ⟨j 0, j 1, eq_ix2 j⟩
  have hr : t.val * 5000 + p.val < 100000 := by have := t.isLt; have := p.isLt; have hN : cfg2.N = 20 := N_2; omega
  have hi : ((cfg2.win 6).blk t).view.emb (ix2 p u) = ix2 (⟨t.val * 5000 + p.val, hr⟩ : Fin 100000) u := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * u.val = u.val; omega
  refine (pay1_apply _ _ _ _ _ _ p u).trans ?_
  refine Eq.trans ?_ (congrArg (updRelu (V c main_call0_v5_0) (V c main_call0_v21) (V c main_arg7) (V c main_call0_v22) (V c main_arg9) (V c main_call0_v23)) hi).symm
  rw [updRelu_apply]
  refine congrArg (fun y : EReal => max y (Ideal.ofBits .f32 0x00000000#32)) (mlp_congr
    (funext fun q => congrArg₂ (fun a b : EReal => a + b) (rows_block V c t p q _ rfl) (sums_block V c t p q _ rfl))
    (weights1_block V c t) (funext fun k => congrFun (bias1_block V c t) (ix2 (0 : Fin 1) k))
    (weights2_block V c t) (funext fun k => congrFun (bias2_block V c t) (ix2 (0 : Fin 1) k)) u)

/-- The second output window writes back the same block, its format narrowed. -/
theorem flushed7_eq (c : Dev nD) (t : Fin cfg2.N) :
    (dat2 V c).flushed 7 t = ((cfg2.win 7).blk t).view.read (Elt Ideal) (updRelu (V c main_call0_v5_0) (V c main_call0_v21) (V c main_arg7) (V c main_call0_v22) (V c main_arg9) (V c main_call0_v23)) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz]
  have hf := idx_facts t
  funext j
  obtain ⟨p, u, rfl⟩ : ∃ (p : Fin 5000) (u : Fin 128), j = ix2 p u := ⟨j 0, j 1, eq_ix2 j⟩
  have hr : t.val * 5000 + p.val < 100000 := by have := t.isLt; have := p.isLt; have hN : cfg2.N = 20 := N_2; omega
  have hi : ((cfg2.win 7).blk t).view.emb (ix2 p u) = ix2 (⟨t.val * 5000 + p.val, hr⟩ : Fin 100000) u := by
    funext a; apply Fin.ext
    match a with
    | ⟨0, _⟩ => show win2_7.index t (0 : Fin 2) * 5000 + 1 * p.val = t.val * 5000 + p.val; omega
    | ⟨1, _⟩ => show win2_7.index t (1 : Fin 2) * 128 + 1 * u.val = u.val; omega
  refine (pay2_apply _ _ _ _ _ _ (ix2 p u)).trans ((pay1_apply _ _ _ _ _ _ p u).trans ?_)
  refine Eq.trans ?_ (congrArg (updRelu (V c main_call0_v5_0) (V c main_call0_v21) (V c main_arg7) (V c main_call0_v22) (V c main_arg9) (V c main_call0_v23)) hi).symm
  rw [updRelu_apply]
  refine congrArg (fun y : EReal => max y (Ideal.ofBits .f32 0x00000000#32)) (mlp_congr
    (funext fun q => congrArg₂ (fun a b : EReal => a + b) (rows_block V c t p q _ rfl) (sums_block V c t p q _ rfl))
    (weights1_block V c t) (funext fun k => congrFun (bias1_block V c t) (ix2 (0 : Fin 1) k))
    (weights2_block V c t) (funext fun k => congrFun (bias2_block V c t) (ix2 (0 : Fin 1) k)) u)

/-- An entry of the array is in point t's block iff its row is one of the block's rows. -/
theorem mem_blk6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_call0_v24_0).slice (win2_6.rect t)).set ↔ _
  rw [View.set_slice_whole, Rect.mem_set_unit]
  exact Iff.rfl

/-- Row r lies in the block of point r / 5000. -/
theorem cover6 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  let t : Fin cfg2.N := ⟨(i 0).val / 5000, by omega⟩
  have hf := idx_facts t
  have ht : t.val = (i 0).val / 5000 := rfl
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After the run the array is `updRelu` of the arrays the kernel found on entry. -/
theorem final6 (c : Dev nD) : (dat2 V c).arrAt 6 cfg2.N = updRelu (V c main_call0_v5_0) (V c main_call0_v21) (V c main_arg7) (V c main_call0_v22) (V c main_arg9) (V c main_call0_v23) :=
  (dat2 V c).arrAt_eq_of_cover 6 _ (fun t _ => flushed6_eq V c t) cover6

theorem mem_blk7 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_call0_v24_1).slice (win2_7.rect t)).set ↔ _
  rw [View.set_slice_whole, Rect.mem_set_unit]
  exact Iff.rfl

/-- Row r lies in the block of point r / 5000. -/
theorem cover7 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 20 := N_2
  let t : Fin cfg2.N := ⟨(i 0).val / 5000, by omega⟩
  have hf := idx_facts t
  have ht : t.val = (i 0).val / 5000 := rfl
  refine ⟨t, flush2_7 t, ?_⟩
  rw [mem_blk7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- After the run the array is `updRelu` of the arrays the kernel found on entry. -/
theorem final7 (c : Dev nD) : (dat2 V c).arrAt 7 cfg2.N = updRelu (V c main_call0_v5_0) (V c main_call0_v21) (V c main_arg7) (V c main_call0_v22) (V c main_arg9) (V c main_call0_v23) :=
  (dat2 V c).arrAt_eq_of_cover 7 _ (fun t _ => flushed7_eq V c t) cover7

end Blocks

end Cert.KernelIdeal.Region2

end
-- ==== Proof.Region3.lean ====
/-
  The fourth kernel: the second layer's update, five thousand nodes at a time.

  Point t of the grid reads rows 5000·t … 5000·t + 4999 of the node rows h and of the edge sums s, the two weight
  arrays whole and the two bias rows, and writes the same rows of its output array: row r is
  relu ((h + s)(r, ·) · W₁ + b₁) · W₂ + b₂ .  The twenty row blocks tile the 100000 rows, so after the run the output
  array is that one function of the arrays the kernel found on entry.
-/
import proofs.«178080_j70463233458547_2_alg».proof.Proof.Gen.KernelIdeal.Frame
import proofs.«178080_j70463233458547_2_alg».proof.Proof.LibRowPerceptron
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

/-! ## The two products' dimension record -/

theorem lhsA (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhsA (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhsB (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's result at an entry -/

/-- Entry (p, u) of the body's result is the perceptron of row p of the two row blocks added. -/
theorem pay1_apply (v0 v2 : Vec Ideal S5000x128 .f32) (v6 : Vec Ideal S128x128 .f32) (v9 : Vec Ideal S1x128 .f32)
    (v16 : Vec Ideal S128x128 .f32) (v19 : Vec Ideal S1x128 .f32) (p : Fin 5000) (u : Fin 128) :
    k3_pay1 (F := Ideal) v0 v2 v6 v9 v16 v19 (ix2 p u) = Cert.RowPerceptron.mlp (fun j : Fin 128 => v0 (ix2 p j) + v2 (ix2 p j)) v6 (fun k : Fin 128 => v9 (ix2 (0 : Fin 1) k)) v16 (fun v : Fin 128 => v19 (ix2 (0 : Fin 1) v)) u := by
  unfold k3_pay1
  rw [shapeCast_self v0, shapeCast_self v2]
  refine (Cert.RowPerceptron.kernel_mlp_apply dot_S5000x128_S128x128_S5000x128_1_0_0_1_n_n dot_S5000x128_S128x128_S5000x128_1_0_0_1_n_n rfl rfl lhsA lhsB rhsA rhsB rfl rfl lhsA lhsB rhsA rhsB
      (truncf (F := Ideal) .bf16 (addf (F := Ideal) v0 v2) bitsLt_bf16_f32) (truncf (F := Ideal) .bf16 v6 bitsLt_bf16_f32) (truncf (F := Ideal) .bf16 v16 bitsLt_bf16_f32) v9 v19
      shapeCasts_S1x128_S1x128 broadcasts_S1x128_S5000x128 shapeCasts_S1x128_S1x128 broadcasts_S1x128_S5000x128 bitsLt_bf16_f32 p u).trans ?_
  rfl

/-- The perceptron depends on its five arguments only. -/
theorem mlp_congr {x x' : Fin 128 → EReal} {w1 w1' w2 w2' : S128x128.Idx → EReal} {b1 b1' b2 b2' : Fin 128 → EReal}
    (hx : x = x') (h1 : w1 = w1') (hb1 : b1 = b1') (h2 : w2 = w2') (hb2 : b2 = b2') (u : Fin 128) :
    Cert.RowPerceptron.mlp x w1 b1 w2 b2 u = Cert.RowPerceptron.mlp x' w1' b1' w2' b2' u := by
  subst hx h1 hb1 h2 hb2; rfl

/-! ## The whole array -/

/-- The perceptron of every row of h + s, the biases 1 × 128 rows. -/
def upd (h s : S100000x128.Idx → EReal) (w1 : S128x128.Idx → EReal) (b1 : S1x128.Idx → EReal)
    (w2 : S128x128.Idx → EReal) (b2 : S1x128.Idx → EReal) : S100000x128.Idx → EReal :=
  fun i => Cert.RowPerceptron.mlp (fun j : Fin 128 => h (ix2 (⟨(i 0).val, (i 0).isLt⟩ : Fin 100000) j) + s (ix2 (⟨(i 0).val, (i 0).isLt⟩ : Fin 100000) j))
    w1 (fun k : Fin 128 => b1 (ix2 (0 : Fin 1) k)) w2 (fun v : Fin 128 => b2 (ix2 (0 : Fin 1) v)) (⟨(i 1).val, (i 1).isLt⟩ : Fin 128)

theorem upd_apply (h s : S100000x128.Idx → EReal) (w1 : S128x128.Idx → EReal) (b1 : S1x128.Idx → EReal)
    (w2 : S128x128.Idx → EReal) (b2 : S1x128.Idx → EReal) (r : Fin 100000) (u : Fin 128) :
    upd h s w1 b1 w2 b2 (ix2 r u) = Cert.RowPerceptron.mlp (fun j : Fin 128 => h (ix2 r j) + s (ix2 r j))
      w1 (fun k : Fin 128 => b1 (ix2 (0 : Fin 1) k)) w2 (fun v : Fin 128 => b2 (ix2 (0 : Fin 1) v)) u := rfl

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block t, the weights and the biases always at their one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Entry (p, q) of the node rows block at point t is entry (5000·t + p, q) of the node array. -/
theorem rows_block (c : Dev nD) (t : Fin cfg3.N) (p : Fin 5000) (q : Fin 128) (r : Fin 100000) (hr : r.val = t.val * 5000 + p.val) :
    (iblk3 V c 0 t : Vec Ideal S5000x128 .f32) (ix2 p q) = V c main_call0_v24_0 (ix2 r q) := by
  have hf := idx_facts t
  show V c main_call0_v24_0 (((cfg3.win 0).blk t).view.emb (ix2 p q)) = _
  refine congrArg (V c main_call0_v24_0) (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

/-- Entry (p, q) of the edge sums block at point t is entry (5000·t + p, q) of the array of edge sums. -/
theorem sums_block (c : Dev nD) (t : Fin cfg3.N) (p : Fin 5000) (q : Fin 128) (r : Fin 100000) (hr : r.val = t.val * 5000 + p.val) :
    (iblk3 V c 1 t : Vec Ideal S5000x128 .f32) (ix2 p q) = V c main_call0_v38 (ix2 r q) := by
  have hf := idx_facts t
  show V c main_call0_v38 (((cfg3.win 1).blk t).view.emb (ix2 p q)) = _
  refine congrArg (V c main_call0_v38) (funext fun a => Fin.ext ?_)
  match a with
  | ⟨0, _⟩ => show win3_1.index t (0 : Fin 2) * 5000 + 1 * p.val = r.val; omega
  | ⟨1, _⟩ => show win3_1.index t (1 : Fin 2) * 128 + 1 * q.val = q.val; omega

/-- The first weights block at every point is the whole array. -/
theorem weights1_block (c : Dev nD) (t : Fin cfg3.N) : (iblk3 V c 2 t : Vec Ideal S128x128 .f32) = V c main_arg7 := by
  have hf := idx_facts t
  funext j
  show V c main_arg7 (((cfg3.win 2).blk t).view.emb j) = _
  refine congrArg (V c main_arg7) (funext fun a => Fin.ext ?_)
  match a with
  | ⟨0, _⟩ => show win3_2.index t (0 : Fin 2) * 128 + 1 * (j 0).val = (j 0).val; omega
  | ⟨1, _⟩ => show win3_2.index t (1 : Fin 2) * 128 + 1 * (j 1).val = (j 1).val; omega

/-- The first bias block at every point is the whole bias row. -/
theorem bias1_block (c : Dev nD) (t : Fin cfg3.N) : (iblk3 V c 3 t : Vec Ideal S1x128 .f32) = V c main_call0_v39 := by
  have hf := idx_facts t
  funext j
  show V c main_call0_v39 (((cfg3.win 3).blk t).view.emb j) = _
  refine congrArg (V c main_call0_v39) (funext fun a => Fin.ext ?_)
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- The second weights block at every point is the whole array. -/
theorem weights2_block (c : Dev nD) (t : Fin cfg3.N) : (iblk3 V c 4 t : Vec Ideal S128x128 .f32) = V c main_arg9 := by
  have hf := idx_facts t
  funext j
  show V c main_arg9 (((cfg3.win 4).blk t).view.emb j) = _
  refine congrArg (V c main_arg9) (funext fun a => Fin.ext ?_)
  match a with
  | ⟨0, _⟩ => show win3_4.index t (0 : Fin 2) * 128 + 1 * (j 0).val = (j 0).val; omega
  | ⟨1, _⟩ => show win3_4.index t (1 : Fin 2) * 128 + 1 * (j 1).val = (j 1).val; omega

/-- The second bias block at every point is the whole bias row. -/
theorem bias2_block (c : Dev nD) (t : Fin cfg3.N) : (iblk3 V c 5 t : Vec Ideal S1x128 .f32) = V c main_call0_v40 := by
  have hf := idx_facts t
  funext j
  show V c main_call0_v40 (((cfg3.win 5).blk t).view.emb j) = _
  refine congrArg (V c main_call0_v40) (funext fun a => Fin.ext ?_)
  match a with
  | ⟨0, _⟩ => show win3_5.index t (0 : Fin 2) * 1 + 1 * (j 0).val = (j 0).val; omega
  | ⟨1, _⟩ => show win3_5.index t (1 : Fin 2) * 128 + 1 * (j 1).val = (j 1).val; omega

/-- What point t writes back through the output window is block t of `upd` of the arrays on entry. -/
theorem flushed6_eq (c : Dev nD) (t : Fin cfg3.N) :
    (dat3 V c).flushed 6 t = ((cfg3.win 6).blk t).view.read (Elt Ideal) (upd (V c main_call0_v24_0) (V c main_call0_v38) (V c main_arg7) (V c main_call0_v39) (V c main_arg9) (V c main_call0_v40)) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  have hf := idx_facts t
  funext j
  obtain ⟨p, u, rfl⟩ : ∃ (p : Fin 5000) (u : Fin 128), j = ix2 p u := ⟨j 0, j 1, eq_ix2 j⟩
  have hr : t.val * 5000 + p.val < 100000 := by have := t.isLt; have := p.isLt; have hN : cfg3.N = 20 := N_3; omega
  have hi : ((cfg3.win 6).blk t).view.emb (ix2 p u) = ix2 (⟨t.val * 5000 + p.val, hr⟩ : Fin 100000) u := by
    funext a; apply Fin.ext
    match a with
    | ⟨0, _⟩ => show win3_6.index t (0 : Fin 2) * 5000 + 1 * p.val = t.val * 5000 + p.val; omega
    | ⟨1, _⟩ => show win3_6.index t (1 : Fin 2) * 128 + 1 * u.val = u.val; omega
  refine (pay1_apply _ _ _ _ _ _ p u).trans ?_
  refine Eq.trans ?_ (congrArg (upd (V c main_call0_v24_0) (V c main_call0_v38) (V c main_arg7) (V c main_call0_v39) (V c main_arg9) (V c main_call0_v40)) hi).symm
  rw [upd_apply]
  refine (mlp_congr
    (funext fun q => congrArg₂ (fun a b : EReal => a + b) (rows_block V c t p q _ rfl) (sums_block V c t p q _ rfl))
    (weights1_block V c t) (funext fun k => congrFun (bias1_block V c t) (ix2 (0 : Fin 1) k))
    (weights2_block V c t) (funext fun k => congrFun (bias2_block V c t) (ix2 (0 : Fin 1) k)) u)

/-- An entry of the array is in point t's block iff its row is one of the block's rows. -/
theorem mem_blk6 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v0).slice (win3_6.rect t)).set ↔ _
  rw [View.set_slice_whole, Rect.mem_set_unit]
  exact Iff.rfl

/-- Row r lies in the block of point r / 5000. -/
theorem cover6 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  let t : Fin cfg3.N := ⟨(i 0).val / 5000, by omega⟩
  have hf := idx_facts t
  have ht : t.val = (i 0).val / 5000 := rfl
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- After the run the array is `upd` of the arrays the kernel found on entry. -/
theorem final6 (c : Dev nD) : (dat3 V c).arrAt 6 cfg3.N = upd (V c main_call0_v24_0) (V c main_call0_v38) (V c main_arg7) (V c main_call0_v39) (V c main_arg9) (V c main_call0_v40) :=
  (dat3 V c).arrAt_eq_of_cover 6 _ (fun t _ => flushed6_eq V c t) cover6

end Blocks

end Cert.KernelIdeal.Region3

end
-- ==== Proof.Bridge.lean ====
/-
  The arrays the four kernels leave are the network's pieces.

  Each kernel's output was read as one array function whose entry (r, u) is a finite sum over the row r of its
  inputs, the biases 1 × 128 rows.  The network's pieces are spelt with the host's operations: a general dot product,
  a bias vector taken to a row and laid along the rows, a maximum against an array of zeros.  Entry by entry the two
  are the same sums: on the extended reals the host's dot product is the plain finite sum, a bias vector cast to a
  row reads its own entries, and the array of zeros reads zero.
-/
import proofs.«178080_j70463233458547_2_alg».proof.Proof.Region0
import proofs.«178080_j70463233458547_2_alg».proof.Proof.Region1
import proofs.«178080_j70463233458547_2_alg».proof.Proof.Region2
import proofs.«178080_j70463233458547_2_alg».proof.Proof.Region3
import proofs.«178080_j70463233458547_2_alg».proof.Proof.Spec
import proofs.«178080_j70463233458547_2_alg».proof.Proof.Gen.ReferenceIdeal.Read
import proofs.«178080_j70463233458547_2_alg».proof.Proof.LibRowPerceptron
import Idealize.ShloMosaic.Lib.ValueLayout

set_option maxRecDepth 16384

noncomputable section

open scoped BigOperators

namespace Cert.Bridge

open Cert.ReferenceIdeal Cert.ReferenceIdeal.Gen Cert.ReferenceIdeal.Spec Cert.ReferenceIdeal.Read
open Idealize.ShloMosaic Idealize.ShloMosaic.TcCoe Idealize.ShloMosaic.ValueIdx
open Cert.RowPerceptron

/-- A vector of 128 numbers cast to a 1 × 128 row reads its own entries. -/
theorem row_apply (b : FVec Ideal S128 .f32) (hc : S128.ShapeCasts S1x128) (k : Fin 128) :
    shapeCast S1x128 b hc (ix2 (0 : Fin 1) k) = b (ix1 k) := shapeCast_a_1a_apply b hc 0 k

/-- The node array of zeros reads zero. -/
theorem nodeZeros_apply (i : S100000x128.Idx) : nodeZeros i = Ideal.ofBits .f32 0x00000000#32 := by
  unfold nodeZeros
  rw [broadcastInDim_scalar_apply]
  rfl

/-- The network's perceptron at entry (r, u) is the perceptron of row r. -/
theorem perceptron_apply (z : FVec Ideal S100000x128 .f32) (w1 : FVec Ideal S128x128 .f32) (b1 : FVec Ideal S128 .f32)
    (w2 : FVec Ideal S128x128 .f32) (b2 : FVec Ideal S128 .f32) (r : Fin 100000) (u : Fin 128) :
    perceptron z w1 b1 w2 b2 (ix2 r u) = mlp (fun j : Fin 128 => z (ix2 r j)) w1 (fun k : Fin 128 => b1 (ix1 k)) w2 (fun v : Fin 128 => b2 (ix1 v)) u := by
  unfold perceptron nodeBias nodeZeros
  exact host_mlp_apply dot_S100000x128_S128x128_S100000x128_1_0_0_1_n_n dot_S100000x128_S128x128_S100000x128_1_0_0_1_n_n rfl rfl lhs_main_v25_0 lhs_main_v25_1 rhs_main_v25_0 rhs_main_v25_1
    rfl rfl lhs_main_v25_0 lhs_main_v25_1 rhs_main_v25_0 rhs_main_v25_1 z w1 w2 b1 b2
    bcast_S128_S1x128_1 bcast_S1x128_S100000x128_0_1 bcast_S128_S1x128_1 bcast_S1x128_S100000x128_0_1 bcast_S_S100000x128 r u

/-- The first kernel's array is the node rows the first layer starts from. -/
theorem nodes0_eq (x : FVec Ideal S100000x24 .f32) (w : FVec Ideal S24x128 .f32) (b : FVec Ideal S128 .f32) (hc : S128.ShapeCasts S1x128) :
    Cert.KernelIdeal.Region0.lin x w (shapeCast S1x128 b hc) = nodes0 x w b := by
  funext i
  obtain ⟨r, u, rfl⟩ : ∃ (r : Fin 100000) (u : Fin 128), i = ix2 r u := ⟨i 0, i 1, eq_ix2 i⟩
  rw [Cert.KernelIdeal.Region0.lin_apply, row_apply]
  unfold nodes0 nodeBias
  show _ = FloatOps.dotGeneral (F := Ideal) dot_S100000x24_S24x128_S100000x128_1_0_0_1_n_n none .single x w (ix2 r u)
      + broadcastInDim S100000x128 ![0, 1] bcast_S1x128_S100000x128_0_1 (broadcastInDim S1x128 ![1] bcast_S128_S1x128_1 b) (ix2 r u)
  rw [Cert.RowsProduct.dotGeneral_rows_apply dot_S100000x24_S24x128_S100000x128_1_0_0_1_n_n none .single rfl rfl lhs_main_v4_0 lhs_main_v4_1 rhs_main_v4_0 rhs_main_v4_1, vecBias_apply]

/-- The second kernel's array is the edge rows. -/
theorem edges_eq (a : FVec Ideal S1600000x2 .f32) (w : FVec Ideal S2x128 .f32) (b : FVec Ideal S128 .f32) (hc : S128.ShapeCasts S1x128) :
    Cert.KernelIdeal.Region1.lin a w (shapeCast S1x128 b hc) = edges a w b := by
  funext i
  obtain ⟨r, u, rfl⟩ : ∃ (r : Fin 1600000) (u : Fin 128), i = ix2 r u := ⟨i 0, i 1, eq_ix2 i⟩
  rw [Cert.KernelIdeal.Region1.lin_apply, row_apply]
  unfold edges
  show _ = FloatOps.dotGeneral (F := Ideal) dot_S1600000x2_S2x128_S1600000x128_1_0_0_1_n_n none .single a w (ix2 r u)
      + broadcastInDim S1600000x128 ![0, 1] bcast_S1x128_S1600000x128_0_1 (broadcastInDim S1x128 ![1] bcast_S128_S1x128_1 b) (ix2 r u)
  rw [Cert.RowsProduct.dotGeneral_rows_apply dot_S1600000x2_S2x128_S1600000x128_1_0_0_1_n_n none .single rfl rfl lhs_main_v8_0 lhs_main_v8_1 rhs_main_v8_0 rhs_main_v8_1, vecBias_apply]

/-- The third kernel's array is the first layer's output clipped at zero. -/
theorem layer1_eq (h s : FVec Ideal S100000x128 .f32) (w1 : FVec Ideal S128x128 .f32) (b1 : FVec Ideal S128 .f32)
    (w2 : FVec Ideal S128x128 .f32) (b2 : FVec Ideal S128 .f32) (hc hc' : S128.ShapeCasts S1x128) :
    Cert.KernelIdeal.Region2.updRelu h s w1 (shapeCast S1x128 b1 hc) w2 (shapeCast S1x128 b2 hc')
      = maximumf (perceptron (addf h s) w1 b1 w2 b2) nodeZeros := by
  funext i
  obtain ⟨r, u, rfl⟩ : ∃ (r : Fin 100000) (u : Fin 128), i = ix2 r u := ⟨i 0, i 1, eq_ix2 i⟩
  rw [Cert.KernelIdeal.Region2.updRelu_apply]
  show _ = max (perceptron (addf h s) w1 b1 w2 b2 (ix2 r u)) (nodeZeros (ix2 r u))
  rw [perceptron_apply, nodeZeros_apply]
  simp only [row_apply]
  rfl

/-- The fourth kernel's array is the second layer's output. -/
theorem layer2_eq (h s : FVec Ideal S100000x128 .f32) (w1 : FVec Ideal S128x128 .f32) (b1 : FVec Ideal S128 .f32)
    (w2 : FVec Ideal S128x128 .f32) (b2 : FVec Ideal S128 .f32) (hc hc' : S128.ShapeCasts S1x128) :
    Cert.KernelIdeal.Region3.upd h s w1 (shapeCast S1x128 b1 hc) w2 (shapeCast S1x128 b2 hc')
      = perceptron (addf h s) w1 b1 w2 b2 := by
  funext i
  obtain ⟨r, u, rfl⟩ : ∃ (r : Fin 100000) (u : Fin 128), i = ix2 r u := ⟨i 0, i 1, eq_ix2 i⟩
  rw [Cert.KernelIdeal.Region3.upd_apply, perceptron_apply]
  simp only [row_apply]
  rfl

end Cert.Bridge

end
-- ==== Proof.Walk.lean ====
/-
  The result array of the idealized kernel, read back through @main.

  The last boundary's contents at the result buffer are what the fourth kernel leaves in its output array: the
  second layer's perceptron of  h₁ + s₂ , where h₁ is what the third kernel left and s₂ the edge sum the stretch before
  it formed from h₁'s narrowed copy and the edge rows; h₁ in turn is the first layer's output clipped at zero, formed
  by the third kernel from the node rows h₀ the first kernel left and the edge sum s₁ of h₀'s narrowed copy and the
  edge rows the second kernel left.  Each array a kernel or a stretch reads was written earlier and has not changed
  since.  Put together, the result array is the network of the eleven arguments as launched.
-/
import proofs.«178080_j70463233458547_2_alg».proof.Proof.Kept
import proofs.«178080_j70463233458547_2_alg».proof.Proof.HostOps
import proofs.«178080_j70463233458547_2_alg».proof.Proof.Bridge

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Spec Cert.KernelIdeal.Kept Cert.KernelIdeal.HostOps

variable (m : (ℓ : Loc nD τ sig) → Buf (Elt Ideal) ℓ) (ρ : Dev nD → PrngReg) (c : Dev nD)

theorem lin0_congr {x x' : S100000x24.Idx → EReal} {w w' : S24x128.Idx → EReal} {b b' : S1x128.Idx → EReal}
    (hx : x = x') (hw : w = w') (hb : b = b') : Region0.lin x w b = Region0.lin x' w' b' := by subst hx hw hb; rfl

theorem lin1_congr {x x' : S1600000x2.Idx → EReal} {w w' : S2x128.Idx → EReal} {b b' : S1x128.Idx → EReal}
    (hx : x = x') (hw : w = w') (hb : b = b') : Region1.lin x w b = Region1.lin x' w' b' := by subst hx hw hb; rfl

theorem updRelu_congr {h h' s s' : S100000x128.Idx → EReal} {w1 w1' w2 w2' : S128x128.Idx → EReal} {b1 b1' b2 b2' : S1x128.Idx → EReal}
    (hh : h = h') (hs : s = s') (h1 : w1 = w1') (hb1 : b1 = b1') (h2 : w2 = w2') (hb2 : b2 = b2') :
    Region2.updRelu h s w1 b1 w2 b2 = Region2.updRelu h' s' w1' b1' w2' b2' := by subst hh hs h1 hb1 h2 hb2; rfl

theorem upd_congr {h h' s s' : S100000x128.Idx → EReal} {w1 w1' w2 w2' : S128x128.Idx → EReal} {b1 b1' b2 b2' : S1x128.Idx → EReal}
    (hh : h = h') (hs : s = s') (h1 : w1 = w1') (hb1 : b1 = b1') (h2 : w2 = w2') (hb2 : b2 = b2') :
    Region3.upd h s w1 b1 w2 b2 = Region3.upd h' s' w1' b1' w2' b2' := by subst hh hs h1 hb1 h2 hb2; rfl

/-! ## The first kernel: the node rows -/

/-- The first kernel leaves x · W_in + b_in in its first output array. -/
theorem nodes_f32 : W2 m ρ c (Proc.devRef .tc main_call0_v5_0) = (nodes0 (m ((c : Thread nD τ).loc main_arg0)) (m ((c : Thread nD τ).loc main_arg3)) (m ((c : Thread nD τ).loc main_arg4))) :=
  (W2_arr m ρ c 3).trans ((Region0.final3 (V1 m ρ) c).trans
    ((lin0_congr (at1_arg0 m ρ c) (at1_arg3 m ρ c) (host0_v4 (W0 m ρ c))).trans (Cert.Bridge.nodes0_eq _ _ _ _)))

/-- And the same numbers in its second. -/
theorem nodes_bf16 : W2 m ρ c (Proc.devRef .tc main_call0_v5_1) = (nodes0 (m ((c : Thread nD τ).loc main_arg0)) (m ((c : Thread nD τ).loc main_arg3)) (m ((c : Thread nD τ).loc main_arg4))) :=
  (W2_arr m ρ c 4).trans ((Region0.final4 (V1 m ρ) c).trans
    ((lin0_congr (at1_arg0 m ρ c) (at1_arg3 m ρ c) (host0_v4 (W0 m ρ c))).trans (Cert.Bridge.nodes0_eq _ _ _ _)))

/-! ## The second kernel: the edge rows -/

theorem edges_bf16 : W4 m ρ c (Proc.devRef .tc main_call0_v7) = (edges (m ((c : Thread nD τ).loc main_arg2)) (m ((c : Thread nD τ).loc main_arg5)) (m ((c : Thread nD τ).loc main_arg6))) :=
  (W4_arr m ρ c 3).trans ((Region1.final3 (V3 m ρ) c).trans
    ((lin1_congr (at3_arg2 m ρ c) (at3_arg5 m ρ c) ((host1_v6 (W2 m ρ c)).trans (congrArg (fun z => shapeCast S1x128 z shapeCasts_S128_S1x128) (at2_arg6 m ρ c)))).trans (Cert.Bridge.edges_eq _ _ _ _)))

/-! ## The first layer -/

/-- The edge sum the third stretch forms is the network's, of the node rows and the edge rows. -/
theorem sum1 : W5 m ρ c (Proc.devRef .tc main_call0_v21) = (edgeSum (nodes0 (m ((c : Thread nD τ).loc main_arg0)) (m ((c : Thread nD τ).loc main_arg3)) (m ((c : Thread nD τ).loc main_arg4))) (edges (m ((c : Thread nD τ).loc main_arg2)) (m ((c : Thread nD τ).loc main_arg5)) (m ((c : Thread nD τ).loc main_arg6))) (m ((c : Thread nD τ).loc main_arg1))) :=
  (host2_v21 (W4 m ρ c)).trans ((edgeSumK_congr ((at4_v5_1 m ρ c).trans (nodes_bf16 m ρ c)) (edges_bf16 m ρ c)
    ((at4_v1 m ρ c).trans (host0_v1 (W0 m ρ c))) ((at4_v3 m ρ c).trans (host0_v3 (W0 m ρ c)))).trans (edgeSumK_eq _ _ _))

theorem b1row5 : W5 m ρ c (Proc.devRef .tc main_call0_v22) = shapeCast S1x128 (m ((c : Thread nD τ).loc main_arg8)) shapeCasts_S128_S1x128 :=
  (host2_v22 (W4 m ρ c)).trans (congrArg (fun z => shapeCast S1x128 z shapeCasts_S128_S1x128) (at4_arg8 m ρ c))

theorem b2row5 : W5 m ρ c (Proc.devRef .tc main_call0_v23) = shapeCast S1x128 (m ((c : Thread nD τ).loc main_arg10)) shapeCasts_S128_S1x128 :=
  (host2_v23 (W4 m ρ c)).trans (congrArg (fun z => shapeCast S1x128 z shapeCasts_S128_S1x128) (at4_arg10 m ρ c))

/-- The third kernel leaves the first layer's output, clipped at zero, in its first output array. -/
theorem layer1_f32 : W6 m ρ c (Proc.devRef .tc main_call0_v24_0) = (maximumf (layer (nodes0 (m ((c : Thread nD τ).loc main_arg0)) (m ((c : Thread nD τ).loc main_arg3)) (m ((c : Thread nD τ).loc main_arg4))) (edges (m ((c : Thread nD τ).loc main_arg2)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10))) nodeZeros) :=
  (W6_arr m ρ c 6).trans ((Region2.final6 (V5 m ρ) c).trans
    ((updRelu_congr ((at5_v5_0 m ρ c).trans (nodes_f32 m ρ c)) (sum1 m ρ c) (at5_arg7 m ρ c) (b1row5 m ρ c) (at5_arg9 m ρ c) (b2row5 m ρ c)).trans
      (Cert.Bridge.layer1_eq _ _ _ _ _ _ _ _)))

/-- And the same numbers in its second. -/
theorem layer1_bf16 : W6 m ρ c (Proc.devRef .tc main_call0_v24_1) = (maximumf (layer (nodes0 (m ((c : Thread nD τ).loc main_arg0)) (m ((c : Thread nD τ).loc main_arg3)) (m ((c : Thread nD τ).loc main_arg4))) (edges (m ((c : Thread nD τ).loc main_arg2)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10))) nodeZeros) :=
  (W6_arr m ρ c 7).trans ((Region2.final7 (V5 m ρ) c).trans
    ((updRelu_congr ((at5_v5_0 m ρ c).trans (nodes_f32 m ρ c)) (sum1 m ρ c) (at5_arg7 m ρ c) (b1row5 m ρ c) (at5_arg9 m ρ c) (b2row5 m ρ c)).trans
      (Cert.Bridge.layer1_eq _ _ _ _ _ _ _ _)))

/-! ## The second layer -/

theorem sum2 : W7 m ρ c (Proc.devRef .tc main_call0_v38) = (edgeSum (maximumf (layer (nodes0 (m ((c : Thread nD τ).loc main_arg0)) (m ((c : Thread nD τ).loc main_arg3)) (m ((c : Thread nD τ).loc main_arg4))) (edges (m ((c : Thread nD τ).loc main_arg2)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10))) nodeZeros) (edges (m ((c : Thread nD τ).loc main_arg2)) (m ((c : Thread nD τ).loc main_arg5)) (m ((c : Thread nD τ).loc main_arg6))) (m ((c : Thread nD τ).loc main_arg1))) :=
  (host3_v38 (W6 m ρ c)).trans ((edgeSumK_congr (layer1_bf16 m ρ c) ((at6_v7 m ρ c).trans (edges_bf16 m ρ c))
    ((at6_v1 m ρ c).trans (host0_v1 (W0 m ρ c))) ((at6_v3 m ρ c).trans (host0_v3 (W0 m ρ c)))).trans (edgeSumK_eq _ _ _))

theorem b1row7 : W7 m ρ c (Proc.devRef .tc main_call0_v39) = shapeCast S1x128 (m ((c : Thread nD τ).loc main_arg8)) shapeCasts_S128_S1x128 :=
  (host3_v39 (W6 m ρ c)).trans (congrArg (fun z => shapeCast S1x128 z shapeCasts_S128_S1x128) (at6_arg8 m ρ c))

theorem b2row7 : W7 m ρ c (Proc.devRef .tc main_call0_v40) = shapeCast S1x128 (m ((c : Thread nD τ).loc main_arg10)) shapeCasts_S128_S1x128 :=
  (host3_v40 (W6 m ρ c)).trans (congrArg (fun z => shapeCast S1x128 z shapeCasts_S128_S1x128) (at6_arg10 m ρ c))

/-- The result array is the network of the arguments as launched. -/
theorem result : W8 m ρ c (Proc.devRef .tc main_v0) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 6).trans ((Region3.final6 (V7 m ρ) c).trans
    ((upd_congr ((at7_v24_0 m ρ c).trans (layer1_f32 m ρ c)) (sum2 m ρ c) (at7_arg7 m ρ c) (b1row7 m ρ c) (at7_arg9 m ρ c) (b2row7 m ρ c)).trans
      (Cert.Bridge.layer2_eq _ _ _ _ _ _ _ _)))

end Cert.KernelIdeal.Walk

end
-- ==== Proof.lean ====
/-
  A two-layer message-passing network on a graph of 100000 nodes and 1600000 edges: four pipelined kernels among
  host operations against the same network written with host operations only.

  Both programs compute, on the extended reals,

      h₀ = x · W_in + b_in ,   e = edge_attr · W_e + b_e ,
      layer (h) = relu ((h + s (h)) · W₁ + b₁) · W₂ + b₂ ,   s (h) (n) = Σ over the edges arriving at n of relu (h (source) + e) ,
      result = layer (relu (layer (h₀))) .

  The kernel's program forms h₀, e and the two perceptrons in kernels that work through the rows in blocks, narrowing
  the operands of each product to a shorter float format and keeping narrowed copies of h₀, e and the first layer's
  output for the edge sums; the host program forms everything with whole-array operations.  On the extended reals a
  change of format is the identity and a product into a zero accumulator is the plain finite sum, so block by block the
  kernels' arrays are the host program's arrays, entry for entry; the edge sum is the same operation in both programs,
  applied to equal arrays, and is never opened.  No law of arithmetic beyond this is used, so the inputs' finiteness is
  not needed for the values; it is the precondition of the three runs.

  The idealization rewrote nothing in the kernel, so the claim that it is the kernel's sanctioned idealization is
  empty.  Each program runs to the end without a fault and leaves its arguments as launched: for the two kernel
  programs this is the frame run of their four pipelines, for the host program its run as a line of operations.
-/
import proofs.«178080_j70463233458547_2_alg».proof.Defs
import proofs.«178080_j70463233458547_2_alg».proof.Proof.Gen.Kernel
import proofs.«178080_j70463233458547_2_alg».proof.Proof.Gen.Kernel.Frame
import proofs.«178080_j70463233458547_2_alg».proof.Proof.Gen.KernelIdeal
import proofs.«178080_j70463233458547_2_alg».proof.Proof.Gen.KernelIdeal.Frame
import proofs.«178080_j70463233458547_2_alg».proof.Proof.Gen.ReferenceIdeal
import proofs.«178080_j70463233458547_2_alg».proof.Proof.Gen.Pre_finite_inputs
import proofs.«178080_j70463233458547_2_alg».proof.Proof.Gen.ReferenceIdeal.Run
import proofs.«178080_j70463233458547_2_alg».proof.Proof.KernelRun
import proofs.«178080_j70463233458547_2_alg».proof.Proof.Spec
import proofs.«178080_j70463233458547_2_alg».proof.Proof.Walk
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The host program runs as a line of operations; its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the launched arguments in their result arrays. -/
theorem algebraic : Cert.algebraic_KernelIdeal_ReferenceIdeal := by
  intro m ρ m' ρ' _ hagree
  refine ⟨fun c => Cert.ReferenceIdeal.Spec.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Walk.result m ρ c), (h c).2⟩) (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Spec.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
